-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4x512x512 : Shape := ⟨4, ![32, 4, 512, 512]⟩
abbrev S_ : Shape := ⟨0, ![]⟩

class Facts : Prop where
  bcast_S_S32x4x512x512 : S_.BroadcastsInDim S32x4x512x512 (![] : Fin 0 → Fin S32x4x512x512.rank)
  reducesTo_S32x4x512x512_S_d0_1_2_3 : S32x4x512x512.ReducesTo [0, 1, 2, 3] S_
  h_S_ : 0 < S_.numel

variable [Facts]

def fn {F : FTy → Type} [FloatOps F] (main_arg0 : FVec F S32x4x512x512 .f32) : IVec S_ 1 :=
  let main_v0 : FVec F S32x4x512x512 .f32 := Host.absf main_arg0
  let main_cst : FVec F S_ .f32 := constant S_ .f32 0x7F800000#32
  let main_v1 : FVec F S32x4x512x512 .f32 := broadcastInDim S32x4x512x512 ![] bcast_S_S32x4x512x512 main_cst
  let main_v2 : IVec S32x4x512x512 1 := cmpf .olt main_v0 main_v1
  let main_c : IVec S_ 1 := constantI S_ 1 1#1
  let main_v3 : IVec S_ 1 := (fun x v => Host.reduce IntOp.andi x v reducesTo_S32x4x512x512_S_d0_1_2_3 h_S_) main_v2 main_c
  main_v3
-- ==== Kernel.lean ====
abbrev S32x4x512x512 : Shape := ⟨4, ![32, 4, 512, 512]⟩
abbrev S128x512x512 : Shape := ⟨3, ![128, 512, 512]⟩
abbrev S2x512x512 : Shape := ⟨3, ![2, 512, 512]⟩
abbrev S2x512x3 : Shape := ⟨3, ![2, 512, 3]⟩
abbrev S2x512x518 : Shape := ⟨3, ![2, 512, 518]⟩
abbrev S2x3x512 : Shape := ⟨3, ![2, 3, 512]⟩
abbrev S2x518x512 : Shape := ⟨3, ![2, 518, 512]⟩
abbrev S2x512 : Shape := ⟨2, ![2, 512]⟩
abbrev S2x512x1 : Shape := ⟨3, ![2, 512, 1]⟩
abbrev S2x1 : Shape := ⟨2, ![2, 1]⟩
abbrev S2x1x1 : Shape := ⟨3, ![2, 1, 1]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S32x4x512x512, .f32⟩
  | .hbm, ⟨1, _⟩ => ⟨S128x512x512, .f32⟩
  | .hbm, ⟨2, _⟩ => ⟨S128x512x512, .i32⟩
  | .hbm, ⟨3, _⟩ => ⟨S128x512x512, .f32⟩
  | .hbm, ⟨4, _⟩ => ⟨S128x512x512, .f32⟩
  | .hbm, ⟨5, _⟩ => ⟨S_, .i32⟩
  | .hbm, ⟨6, _⟩ => ⟨S128x512x512, .i32⟩
  | .hbm, ⟨7, _⟩ => ⟨S128x512x512, .i1⟩
  | .hbm, ⟨8, _⟩ => ⟨S128x512x512, .i1⟩
  | .hbm, ⟨9, _⟩ => ⟨S32x4x512x512, .i1⟩
  | .hbm, ⟨10, _⟩ => ⟨S32x4x512x512, .f32⟩
  | .hbm, ⟨11, _⟩ => ⟨S32x4x512x512, .f32⟩
  | .local _ .vmem, ⟨0, _⟩ => ⟨S2x512x512, .f32⟩
  | .local _ .vmem, ⟨1, _⟩ => ⟨S2x512x512, .f32⟩
  | .local _ .vmem, ⟨2, _⟩ => ⟨S2x512x512, .i32⟩
  | .local _ .vmem, ⟨3, _⟩ => ⟨S2x512x512, .i32⟩
  | .local _ .vmem, ⟨4, _⟩ => ⟨S2x512x512, .f32⟩
  | .local _ .vmem, ⟨5, _⟩ => ⟨S2x512x512, .f32⟩
  | .local _ .vmem, ⟨6, _⟩ => ⟨S2x512x512, .f32⟩
  | .local _ .vmem, ⟨7, _⟩ => ⟨S2x512x512, .f32⟩
  | _, _ => ⟨S32x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x4x512x512_S128x512x512 : S32x4x512x512.ShapeCasts S128x512x512
  inb_S2x512x512_S2x512x512_0_0_0 : ∀ a, (![0, 0, 0] : Fin 3 → Nat) a + S2x512x512.size a ≤ S2x512x512.size a
  h_S2x512x512 : 0 < S2x512x512.numel
  shapeCasts_S2x512x512_S2x512x512 : S2x512x512.ShapeCasts S2x512x512
  concatenates_S2x512x3_S2x512x512_S2x512x3_S2x512x518_d2 : Shape.Concatenates [S2x512x3, S2x512x512, S2x512x3] S2x512x518 2
  slices_S2x512x518_o0_0_0_S2x512x512 : S2x512x518.Slices ![0, 0, 0] S2x512x512
  slices_S2x512x518_o0_0_1_S2x512x512 : S2x512x518.Slices ![0, 0, 1] S2x512x512
  slices_S2x512x518_o0_0_2_S2x512x512 : S2x512x518.Slices ![0, 0, 2] S2x512x512
  slices_S2x512x518_o0_0_3_S2x512x512 : S2x512x518.Slices ![0, 0, 3] S2x512x512
  slices_S2x512x518_o0_0_4_S2x512x512 : S2x512x518.Slices ![0, 0, 4] S2x512x512
  slices_S2x512x518_o0_0_5_S2x512x512 : S2x512x518.Slices ![0, 0, 5] S2x512x512
  slices_S2x512x518_o0_0_6_S2x512x512 : S2x512x518.Slices ![0, 0, 6] S2x512x512
  concatenates_S2x3x512_S2x512x512_S2x3x512_S2x518x512_d1 : Shape.Concatenates [S2x3x512, S2x512x512, S2x3x512] S2x518x512 1
  slices_S2x518x512_o0_0_0_S2x512x512 : S2x518x512.Slices ![0, 0, 0] S2x512x512
  slices_S2x518x512_o0_1_0_S2x512x512 : S2x518x512.Slices ![0, 1, 0] S2x512x512
  slices_S2x518x512_o0_2_0_S2x512x512 : S2x518x512.Slices ![0, 2, 0] S2x512x512
  slices_S2x518x512_o0_3_0_S2x512x512 : S2x518x512.Slices ![0, 3, 0] S2x512x512
  slices_S2x518x512_o0_4_0_S2x512x512 : S2x518x512.Slices ![0, 4, 0] S2x512x512
  slices_S2x518x512_o0_5_0_S2x512x512 : S2x518x512.Slices ![0, 5, 0] S2x512x512
  slices_S2x518x512_o0_6_0_S2x512x512 : S2x518x512.Slices ![0, 6, 0] S2x512x512
  reduces_S2x512x512_S2x512 : S2x512x512.Reduces [2] S2x512
  shapeCasts_S2x512_S2x512x1 : S2x512.ShapeCasts S2x512x1
  reduces_S2x512x1_S2x1 : S2x512x1.Reduces [1] S2x1
  shapeCasts_S2x1_S2x1x1 : S2x1.ShapeCasts S2x1x1
  broadcasts_S2x1x1_S2x512x512 : S2x1x1.Broadcasts S2x512x512
  natLt_1_32 : 1 < 32
  bcast_S_S128x512x512 : S_.BroadcastsInDim S128x512x512 (![] : Fin 0 → Fin S128x512x512.rank)
  shapeCasts_S128x512x512_S32x4x512x512 : S128x512x512.ShapeCasts S32x4x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x512.size a ≤ S128x512x512.size a
  hwx0_0 : ∀ i : grid0.Coords, EltTy.bits .f32 = 32 ∨ (Rect.block (s := S128x512x512) S2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S128x512x512.size a
  hwx0_1 : ∀ i : grid0.Coords, EltTy.bits .i32 = 32 ∨ (Rect.block (s := S128x512x512) S2x512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x512.size a ≤ S128x512x512.size a
  hwx0_2 : ∀ i : grid0.Coords, EltTy.bits .f32 = 32 ∨ (Rect.block (s := S128x512x512) S2x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512x512.size a ≤ S128x512x512.size a
  hwx0_3 : ∀ i : grid0.Coords, EltTy.bits .f32 = 32 ∨ (Rect.block (s := S128x512x512) S2x512x512.size (cc0_transform_3 i) (hinb0_3 i)).WholeWords (EltTy.packing .f32)

variable [Facts₀]

abbrev win0_0 : Pipeline.Window sig grid0 :=
  Pipeline.Window.ofSpec (Memref.whole main_v0) S2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S2x512x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S2x512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_2) S2x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x4x512x512 : Shape := ⟨4, ![32, 4, 512, 512]⟩
abbrev S_ : Shape := ⟨0, ![]⟩
abbrev S32x4 : Shape := ⟨2, ![32, 4]⟩
abbrev S32x4x1x1 : Shape := ⟨4, ![32, 4, 1, 1]⟩

abbrev nBuf : Space → Nat
  | .hbm => 23
  | .vmem => 0
  | .smem => 0
  | _ => 0

abbrev bufTy : (tb : Table) → Fin (tcTables nBuf tb) → BufTy
  | .hbm, ⟨0, _⟩ => ⟨S32x4x512x512, .f32⟩
  | .hbm, ⟨1, _⟩ => ⟨S_, .f32⟩
  | .hbm, ⟨2, _⟩ => ⟨S_, .f32⟩
  | .hbm, ⟨3, _⟩ => ⟨S32x4x512x512, .f32⟩
  | .hbm, ⟨4, _⟩ => ⟨S_, .f32⟩
  | .hbm, ⟨5, _⟩ => ⟨S32x4, .f32⟩
  | .hbm, ⟨6, _⟩ => ⟨S32x4x1x1, .f32⟩
  | .hbm, ⟨7, _⟩ => ⟨S32x4x512x512, .i1⟩
  | .hbm, ⟨8, _⟩ => ⟨S_, .f32⟩
  | .hbm, ⟨9, _⟩ => ⟨S32x4x512x512, .f32⟩
  | .hbm, ⟨10, _⟩ => ⟨S32x4x512x512, .i1⟩
  | .hbm, ⟨11, _⟩ => ⟨S32x4x512x512, .i1⟩
  | .hbm, ⟨12, _⟩ => ⟨S_, .f32⟩
  | .hbm, ⟨13, _⟩ => ⟨S32x4x1x1, .f32⟩
  | .hbm, ⟨14, _⟩ => ⟨S32x4x1x1, .f32⟩
  | .hbm, ⟨15, _⟩ => ⟨S32x4x512x512, .f32⟩
  | .hbm, ⟨16, _⟩ => ⟨S32x4x512x512, .i1⟩
  | .hbm, ⟨17, _⟩ => ⟨S32x4x512x512, .i1⟩
  | .hbm, ⟨18, _⟩ => ⟨S_, .f32⟩
  | .hbm, ⟨19, _⟩ => ⟨S32x4x512x512, .f32⟩
  | .hbm, ⟨20, _⟩ => ⟨S32x4x512x512, .f32⟩
  | .hbm, ⟨21, _⟩ => ⟨S32x4x512x512, .f32⟩
  | .hbm, ⟨22, _⟩ => ⟨S32x4x512x512, .f32⟩
  | _, _ => ⟨S32x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S32x4x512x512_S32x4x512x512_w1s1p0_0_w1s1p0_0_w7s1p3_3_w7s1p3_3 : S32x4x512x512.ReduceWindows (![1, 1, 7, 7] : Fin 4 → Nat) ![1, 1, 1, 1] ![0, 0, 3, 3] ![0, 0, 3, 3] S32x4x512x512
  h_S_ : 0 < S_.numel
  reducesTo_S32x4x512x512_S32x4_d2_3 : S32x4x512x512.ReducesTo [2, 3] S32x4
  bcast_S32x4_S32x4x1x1_0_1 : S32x4.BroadcastsInDim S32x4x1x1 (![0, 1] : Fin 2 → Fin S32x4x1x1.rank)
  bcast_S_S32x4x512x512 : S_.BroadcastsInDim S32x4x512x512 (![] : Fin 0 → Fin S32x4x512x512.rank)
  bcast_S_S32x4x1x1 : S_.BroadcastsInDim S32x4x1x1 (![] : Fin 0 → Fin S32x4x1x1.rank)
  bcast_S32x4x1x1_S32x4x512x512_0_1_2_3 : S32x4x1x1.BroadcastsInDim S32x4x512x512 (![0, 1, 2, 3] : Fin 4 → Fin S32x4x512x512.rank)

variable [Facts₀]

class Facts : Prop extends Facts₀ where

variable [Facts]
-- ==== Proof.Spec.lean ====
/-
  The three results of the peak detector, as functions of the belief maps.

  The argument is a stack of 32 × 4 images of 512 × 512 extended reals.  One program works on the stack
  flattened to 128 images — image `n` of the flat stack is image `(n / 4, n % 4)` — and writes its mask as
  32-bit words; the other works on the four-axis stack directly.  The three flat arrays below are the
  four-axis results read through that correspondence: the mask (a one-bit word widened to 32 bits), the
  value at a peak (zero elsewhere), and that value divided by the image's maximum.
-/
import proofs.«107111_j37005438222881_2_alg».proof.Proof.Gen.KernelIdeal
import proofs.«107111_j37005438222881_2_alg».proof.Proof.Gen.ReferenceIdeal.Read
import Idealize.ShloMosaic.Lib.ValueIdx

noncomputable section

namespace Cert.Nms

open Idealize.ShloMosaic Idealize.ShloMosaic.ValueIdx

/-- The four-axis stack of images. -/
abbrev Stack : Type := Cert.ReferenceIdeal.S32x4x512x512.Idx → EReal

/-- Flat image `n`, row `h`, column `w` is image `(n / 4, n % 4)`, row `h`, column `w` of the stack. -/
def unflat (i : Cert.KernelIdeal.S128x512x512.Idx) : Cert.ReferenceIdeal.S32x4x512x512.Idx :=
  ix4 (⟨(i 0).val / 4, by have h : (i 0).val < 128 := (i 0).isLt; omega⟩ : Fin 32)
    (⟨(i 0).val % 4, Nat.mod_lt _ (by decide)⟩ : Fin 4) (i 1 : Fin 512) (i 2 : Fin 512)

theorem unflat_val0 (i : Cert.KernelIdeal.S128x512x512.Idx) : (unflat i 0).val = (i 0).val / 4 := rfl
theorem unflat_val1 (i : Cert.KernelIdeal.S128x512x512.Idx) : (unflat i 1).val = (i 0).val % 4 := rfl
theorem unflat_val2 (i : Cert.KernelIdeal.S128x512x512.Idx) : (unflat i 2).val = (i 1).val := rfl
theorem unflat_val3 (i : Cert.KernelIdeal.S128x512x512.Idx) : (unflat i 3).val = (i 2).val := rfl

/-- The peak mask on the flat stack, each bit widened to a 32-bit word. -/
def maskWords (X : Stack) : Cert.KernelIdeal.S128x512x512.Idx → BitVec 32 :=
  fun i => (Cert.ReferenceIdeal.Read.val_main_v12 (F := Ideal) X (unflat i)).setWidth 32

/-- The value at a peak, zero elsewhere, on the flat stack. -/
def peakValue (X : Stack) : Cert.KernelIdeal.S128x512x512.Idx → EReal :=
  fun i => Cert.ReferenceIdeal.Read.val_main_v13 (F := Ideal) X (unflat i)

/-- The same divided by the image's maximum, on the flat stack. -/
def peakRatio (X : Stack) : Cert.KernelIdeal.S128x512x512.Idx → EReal :=
  fun i => Cert.ReferenceIdeal.Read.val_main_v15 (F := Ideal) X (unflat i)

end Cert.Nms

end
-- ==== Proof.BlockPool.lean ====
/-
  One block of two 512 × 512 images at the extended reals: the separable 7 × 7 window maximum with -∞ padding that
  the body computes (`pooled`: the block padded with three columns of -∞ on each side, the maximum of its seven
  column shifts, that padded with three rows of -∞ on each side, the maximum of its seven row shifts) and the
  block maximum (the maximum along the columns, then along the rows), each characterised by its UNIVERSAL PROPERTY:
  a maximum lies under a bound `M` exactly when every element it ranges over does.

  • `pay4_eq`, `pay6_eq`: the generated payload terms restated over `pooled` (definitional).
  • `pooled_le_iff`: `pooled x (n, h, w) ≤ M` iff `x (n, h', w') ≤ M` for every `(h', w')` of the image with
    `|h' - h| ≤ 3` and `|w' - w| ≤ 3` — the 7 × 7 window clipped to the image, since the padding is -∞ = ⊥.
  • `blockMax_le_iff`: the block maximum at image `n` lies under `M` iff every element of image `n` does.

  The steps: a padded array read at an index is the block at the shifted index or ⊥ (`padW_le_iff`, `padH_le_iff`);
  a unit-stride slice read at an index is its operand at the index moved by the offset (`sliceW_apply`,
  `sliceH_apply`); `max a b ≤ M ↔ a ≤ M ∧ b ≤ M` seven times (`poolW_le_iff`, `poolH_le_iff`); and a one-axis
  maximum reduction is the fold of `max` from ⊥ over that axis's coordinates (`rowMax_le_iff`, `colMax_le_iff`).
-/
import proofs.«107111_j37005438222881_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.NmsBlock

open Idealize.ShloMosaic Idealize.SL.Sem Idealize.ShloMosaic.ValueIdx
open Cert.KernelIdeal Cert.KernelIdeal.Gen

/-- The pattern 0xFF800000 denotes -∞, the least extended real. -/
theorem negInf_eq_bot : (Scalar.ofBits (F := Ideal) .f32 0xFF800000#32 : Ideal .f32) = (⊥ : EReal) := by
  show Ideal.ofBits .f32 0xFF800000#32 = ⊥
  simp [Ideal.ofBits, Ideal.ieee]

/-- The block padded with three columns of -∞ on each side of the last axis. -/
def padW (x : FVec Ideal S2x512x512 .f32) : FVec Ideal S2x512x518 .f32 :=
  concatenate S2x512x518 2 [⟨S2x512x3, broadcast S2x512x3 (Scalar.ofBits .f32 0xFF800000#32)⟩, ⟨S2x512x512, x⟩,
    ⟨S2x512x3, broadcast S2x512x3 (Scalar.ofBits .f32 0xFF800000#32)⟩] concatenates_S2x512x3_S2x512x512_S2x512x3_S2x512x518_d2

/-- The block padded with three rows of -∞ on each side of the middle axis. -/
def padH (x : FVec Ideal S2x512x512 .f32) : FVec Ideal S2x518x512 .f32 :=
  concatenate S2x518x512 1 [⟨S2x3x512, broadcast S2x3x512 (Scalar.ofBits .f32 0xFF800000#32)⟩, ⟨S2x512x512, x⟩,
    ⟨S2x3x512, broadcast S2x3x512 (Scalar.ofBits .f32 0xFF800000#32)⟩] concatenates_S2x3x512_S2x512x512_S2x3x512_S2x518x512_d1

/-- The maximum over the seven column offsets 0..6 of the column-padded block: a 1×7 window maximum. -/
def poolW (x : FVec Ideal S2x512x512 .f32) : FVec Ideal S2x512x512 .f32 :=
  have v4 : FVec Ideal S2x512x518 .f32 := padW x
  have v5 : FVec Ideal S2x512x512 .f32 := extractStridedSlice S2x512x512 ![0, 0, 0] v4 slices_S2x512x518_o0_0_0_S2x512x512
  have v6 : FVec Ideal S2x512x512 .f32 := extractStridedSlice S2x512x512 ![0, 0, 1] v4 slices_S2x512x518_o0_0_1_S2x512x512
  have v7 : FVec Ideal S2x512x512 .f32 := maximumf v5 v6
  have v8 : FVec Ideal S2x512x512 .f32 := extractStridedSlice S2x512x512 ![0, 0, 2] v4 slices_S2x512x518_o0_0_2_S2x512x512
  have v9 : FVec Ideal S2x512x512 .f32 := maximumf v7 v8
  have v10 : FVec Ideal S2x512x512 .f32 := extractStridedSlice S2x512x512 ![0, 0, 3] v4 slices_S2x512x518_o0_0_3_S2x512x512
  have v11 : FVec Ideal S2x512x512 .f32 := maximumf v9 v10
  have v12 : FVec Ideal S2x512x512 .f32 := extractStridedSlice S2x512x512 ![0, 0, 4] v4 slices_S2x512x518_o0_0_4_S2x512x512
  have v13 : FVec Ideal S2x512x512 .f32 := maximumf v11 v12
  have v14 : FVec Ideal S2x512x512 .f32 := extractStridedSlice S2x512x512 ![0, 0, 5] v4 slices_S2x512x518_o0_0_5_S2x512x512
  have v15 : FVec Ideal S2x512x512 .f32 := maximumf v13 v14
  have v16 : FVec Ideal S2x512x512 .f32 := extractStridedSlice S2x512x512 ![0, 0, 6] v4 slices_S2x512x518_o0_0_6_S2x512x512
  maximumf v15 v16

/-- The maximum over the seven row offsets 0..6 of the row-padded block: a 7×1 window maximum. -/
def poolH (x : FVec Ideal S2x512x512 .f32) : FVec Ideal S2x512x512 .f32 :=
  have v20 : FVec Ideal S2x518x512 .f32 := padH x
  have v21 : FVec Ideal S2x512x512 .f32 := extractStridedSlice S2x512x512 ![0, 0, 0] v20 slices_S2x518x512_o0_0_0_S2x512x512
  have v22 : FVec Ideal S2x512x512 .f32 := extractStridedSlice S2x512x512 ![0, 1, 0] v20 slices_S2x518x512_o0_1_0_S2x512x512
  have v23 : FVec Ideal S2x512x512 .f32 := maximumf v21 v22
  have v24 : FVec Ideal S2x512x512 .f32 := extractStridedSlice S2x512x512 ![0, 2, 0] v20 slices_S2x518x512_o0_2_0_S2x512x512
  have v25 : FVec Ideal S2x512x512 .f32 := maximumf v23 v24
  have v26 : FVec Ideal S2x512x512 .f32 := extractStridedSlice S2x512x512 ![0, 3, 0] v20 slices_S2x518x512_o0_3_0_S2x512x512
  have v27 : FVec Ideal S2x512x512 .f32 := maximumf v25 v26
  have v28 : FVec Ideal S2x512x512 .f32 := extractStridedSlice S2x512x512 ![0, 4, 0] v20 slices_S2x518x512_o0_4_0_S2x512x512
  have v29 : FVec Ideal S2x512x512 .f32 := maximumf v27 v28
  have v30 : FVec Ideal S2x512x512 .f32 := extractStridedSlice S2x512x512 ![0, 5, 0] v20 slices_S2x518x512_o0_5_0_S2x512x512
  have v31 : FVec Ideal S2x512x512 .f32 := maximumf v29 v30
  have v32 : FVec Ideal S2x512x512 .f32 := extractStridedSlice S2x512x512 ![0, 6, 0] v20 slices_S2x518x512_o0_6_0_S2x512x512
  maximumf v31 v32

/-- The separable 7×7 window maximum with -∞ padding, as the kernel body computes it: columns first, then rows. -/
def pooled (x : FVec Ideal S2x512x512 .f32) : FVec Ideal S2x512x512 .f32 := poolH (poolW x)

/-- The input's shape cast to its own shape is the input. -/
theorem pay4_eq (x0 : Vec Ideal S2x512x512 .f32) : k0_pay4 (F := Ideal) x0 = x0 := shapeCast_self _ _

/-- The mask payload is: (window maximum equals the value) and (value > 0.2) and (value > 0.05 · block maximum). -/
theorem pay6_eq (x0 : Vec Ideal S2x512x512 .f32) :
    k0_pay6 (F := Ideal) x0
      = andi (andi (cmpf .oeq (pooled (k0_pay4 x0)) (k0_pay4 x0))
            (cmpf .ogt (k0_pay4 x0) (broadcast S2x512x512 (Scalar.ofBits .f32 0x3E4CCCCD#32))))
          (cmpf .ogt (k0_pay4 x0) (broadcastTo S2x512x512
            (mulf (broadcast S2x1x1 (Scalar.ofBits .f32 0x3D4CCCCD#32)) (k0_pay5 x0)) broadcasts_S2x1x1_S2x512x512)) := rfl

/-! ### The padded arrays read at an index -/

/-- The column-padded block at a padded column `3 + c` is the block at column `c`. -/
theorem padW_apply_mid (x : FVec Ideal S2x512x512 .f32) (n : Fin 2) (h : Fin 512) (j : Fin 518) (c : Fin 512)
    (hc : 3 + c.val = j.val) : padW x (ix3 n h j) = x (ix3 n h c) := by
  unfold padW
  refine concatenate_apply_piece (t := S2x512x518) 2 [⟨S2x512x3, broadcast S2x512x3 (Scalar.ofBits .f32 0xFF800000#32)⟩, ⟨S2x512x512, x⟩, ⟨S2x512x3, broadcast S2x512x3 (Scalar.ofBits .f32 0xFF800000#32)⟩]
    concatenates_S2x512x3_S2x512x512_S2x512x3_S2x512x518_d2 (ix3 n h j) 1 (by show (1 : Nat) < 3; omega) S2x512x512 x rfl rfl 3 rfl (ix3 n h c) ?_ hc
  intro b hb
  match b with
  | ⟨0, _⟩ => rfl
  | ⟨1, _⟩ => rfl
  | ⟨2, _⟩ => exact absurd rfl hb

/-- The column-padded block at one of its first three columns is -∞. -/
theorem padW_apply_lo (x : FVec Ideal S2x512x512 .f32) (n : Fin 2) (h : Fin 512) (j : Fin 518)
    (hj : j.val < 3) : padW x (ix3 n h j) = (⊥ : EReal) := by
  unfold padW
  refine (concatenate_apply_piece (t := S2x512x518) 2 [⟨S2x512x3, broadcast S2x512x3 (Scalar.ofBits .f32 0xFF800000#32)⟩, ⟨S2x512x512, x⟩, ⟨S2x512x3, broadcast S2x512x3 (Scalar.ofBits .f32 0xFF800000#32)⟩]
    concatenates_S2x512x3_S2x512x512_S2x512x3_S2x512x518_d2 (ix3 n h j) 0 (by show (0 : Nat) < 3; omega) S2x512x3 (broadcast S2x512x3 (Scalar.ofBits .f32 0xFF800000#32)) rfl rfl 0 rfl
    (ix3 n h ⟨j.val, hj⟩) ?_ (Nat.zero_add _)).trans negInf_eq_bot
  intro b hb
  match b with
  | ⟨0, _⟩ => rfl
  | ⟨1, _⟩ => rfl
  | ⟨2, _⟩ => exact absurd rfl hb

/-- The column-padded block at one of its last three columns is -∞. -/
theorem padW_apply_hi (x : FVec Ideal S2x512x512 .f32) (n : Fin 2) (h : Fin 512) (j : Fin 518)
    (hj : 515 ≤ j.val) : padW x (ix3 n h j) = (⊥ : EReal) := by
  unfold padW
  refine (concatenate_apply_piece (t := S2x512x518) 2 [⟨S2x512x3, broadcast S2x512x3 (Scalar.ofBits .f32 0xFF800000#32)⟩, ⟨S2x512x512, x⟩, ⟨S2x512x3, broadcast S2x512x3 (Scalar.ofBits .f32 0xFF800000#32)⟩]
    concatenates_S2x512x3_S2x512x512_S2x512x3_S2x512x518_d2 (ix3 n h j) 2 (by show (2 : Nat) < 3; omega) S2x512x3 (broadcast S2x512x3 (Scalar.ofBits .f32 0xFF800000#32)) rfl rfl 515 rfl
    (ix3 n h ⟨j.val - 515, by omega⟩) ?_ (by show 515 + (j.val - 515) = j.val; omega)).trans negInf_eq_bot
  intro b hb
  match b with
  | ⟨0, _⟩ => rfl
  | ⟨1, _⟩ => rfl
  | ⟨2, _⟩ => exact absurd rfl hb

/-- A column of the column-padded block lies under a bound exactly when the column of the block it copies (if any:
    padded column `j` copies column `j - 3`) does; the padding columns hold -∞ and lie under every bound. -/
theorem padW_le_iff (x : FVec Ideal S2x512x512 .f32) (n : Fin 2) (h : Fin 512) (j : Fin 518) (M : EReal) :
    (padW x (ix3 n h j) : EReal) ≤ M ↔ ∀ w' : Fin 512, w'.val + 3 = j.val → (x (ix3 n h w') : EReal) ≤ M := by
  by_cases h1 : j.val < 3
  · rw [padW_apply_lo x n h j h1]
    exact ⟨fun _ w' hw => by omega, fun _ => bot_le⟩
  · by_cases h2 : j.val < 515
    · rw [padW_apply_mid x n h j ⟨j.val - 3, by omega⟩ (by show 3 + (j.val - 3) = j.val; omega)]
      refine ⟨fun H w' hw => ?_, fun H => H _ (by show j.val - 3 + 3 = j.val; omega)⟩
      have : w' = ⟨j.val - 3, by omega⟩ := Fin.ext (by show w'.val = j.val - 3; omega)
      rw [this]; exact H
    · rw [padW_apply_hi x n h j (by omega)]
      exact ⟨fun _ w' hw => by omega, fun _ => bot_le⟩

/-- The row-padded block at a padded row `3 + c` is the block at row `c`. -/
theorem padH_apply_mid (x : FVec Ideal S2x512x512 .f32) (n : Fin 2) (j : Fin 518) (w : Fin 512) (c : Fin 512)
    (hc : 3 + c.val = j.val) : padH x (ix3 n j w) = x (ix3 n c w) := by
  unfold padH
  refine concatenate_apply_piece (t := S2x518x512) 1 [⟨S2x3x512, broadcast S2x3x512 (Scalar.ofBits .f32 0xFF800000#32)⟩, ⟨S2x512x512, x⟩, ⟨S2x3x512, broadcast S2x3x512 (Scalar.ofBits .f32 0xFF800000#32)⟩]
    concatenates_S2x3x512_S2x512x512_S2x3x512_S2x518x512_d1 (ix3 n j w) 1 (by show (1 : Nat) < 3; omega) S2x512x512 x rfl rfl 3 rfl (ix3 n c w) ?_ hc
  intro b hb
  match b with
  | ⟨0, _⟩ => rfl
  | ⟨1, _⟩ => exact absurd rfl hb
  | ⟨2, _⟩ => rfl

/-- The row-padded block at one of its first three rows is -∞. -/
theorem padH_apply_lo (x : FVec Ideal S2x512x512 .f32) (n : Fin 2) (j : Fin 518) (w : Fin 512)
    (hj : j.val < 3) : padH x (ix3 n j w) = (⊥ : EReal) := by
  unfold padH
  refine (concatenate_apply_piece (t := S2x518x512) 1 [⟨S2x3x512, broadcast S2x3x512 (Scalar.ofBits .f32 0xFF800000#32)⟩, ⟨S2x512x512, x⟩, ⟨S2x3x512, broadcast S2x3x512 (Scalar.ofBits .f32 0xFF800000#32)⟩]
    concatenates_S2x3x512_S2x512x512_S2x3x512_S2x518x512_d1 (ix3 n j w) 0 (by show (0 : Nat) < 3; omega) S2x3x512 (broadcast S2x3x512 (Scalar.ofBits .f32 0xFF800000#32)) rfl rfl 0 rfl
    (ix3 n ⟨j.val, hj⟩ w) ?_ (Nat.zero_add _)).trans negInf_eq_bot
  intro b hb
  match b with
  | ⟨0, _⟩ => rfl
  | ⟨1, _⟩ => exact absurd rfl hb
  | ⟨2, _⟩ => rfl

/-- The row-padded block at one of its last three rows is -∞. -/
theorem padH_apply_hi (x : FVec Ideal S2x512x512 .f32) (n : Fin 2) (j : Fin 518) (w : Fin 512)
    (hj : 515 ≤ j.val) : padH x (ix3 n j w) = (⊥ : EReal) := by
  unfold padH
  refine (concatenate_apply_piece (t := S2x518x512) 1 [⟨S2x3x512, broadcast S2x3x512 (Scalar.ofBits .f32 0xFF800000#32)⟩, ⟨S2x512x512, x⟩, ⟨S2x3x512, broadcast S2x3x512 (Scalar.ofBits .f32 0xFF800000#32)⟩]
    concatenates_S2x3x512_S2x512x512_S2x3x512_S2x518x512_d1 (ix3 n j w) 2 (by show (2 : Nat) < 3; omega) S2x3x512 (broadcast S2x3x512 (Scalar.ofBits .f32 0xFF800000#32)) rfl rfl 515 rfl
    (ix3 n ⟨j.val - 515, by omega⟩ w) ?_ (by show 515 + (j.val - 515) = j.val; omega)).trans negInf_eq_bot
  intro b hb
  match b with
  | ⟨0, _⟩ => rfl
  | ⟨1, _⟩ => exact absurd rfl hb
  | ⟨2, _⟩ => rfl

/-- A row of the row-padded block lies under a bound exactly when the row of the block it copies (if any) does. -/
theorem padH_le_iff (x : FVec Ideal S2x512x512 .f32) (n : Fin 2) (j : Fin 518) (w : Fin 512) (M : EReal) :
    (padH x (ix3 n j w) : EReal) ≤ M ↔ ∀ h' : Fin 512, h'.val + 3 = j.val → (x (ix3 n h' w) : EReal) ≤ M := by
  by_cases h1 : j.val < 3
  · rw [padH_apply_lo x n j w h1]
    exact ⟨fun _ h' hw => by omega, fun _ => bot_le⟩
  · by_cases h2 : j.val < 515
    · rw [padH_apply_mid x n j w ⟨j.val - 3, by omega⟩ (by show 3 + (j.val - 3) = j.val; omega)]
      refine ⟨fun H h' hw => ?_, fun H => H _ (by show j.val - 3 + 3 = j.val; omega)⟩
      have : h' = ⟨j.val - 3, by omega⟩ := Fin.ext (by show h'.val = j.val - 3; omega)
      rw [this]; exact H
    · rw [padH_apply_hi x n j w (by omega)]
      exact ⟨fun _ h' hw => by omega, fun _ => bot_le⟩

/-! ### The unit-stride slices read at an index -/

/-- The slice of a column-padded array at column offset `d`, read at column `w`, is the array at column `w + d`. -/
theorem sliceW_apply (y : FVec Ideal S2x512x518 .f32) (d : Nat) (hs : S2x512x518.Slices ![0, 0, d] S2x512x512)
    (n : Fin 2) (h w : Fin 512) (hd : w.val + d < 518) :
    extractStridedSlice S2x512x512 ![0, 0, d] y hs (ix3 n h w) = y (ix3 n h ⟨w.val + d, hd⟩) := by
  refine extractStridedSlice_apply ![0, 0, d] y hs (ix3 n h w) (ix3 n h ⟨w.val + d, hd⟩) ?_
  intro a
  match a with
  | ⟨0, _⟩ => show n.val = 0 + n.val; omega
  | ⟨1, _⟩ => show h.val = 0 + h.val; omega
  | ⟨2, _⟩ => show w.val + d = d + w.val; omega

/-- The slice of a row-padded array at row offset `d`, read at row `h`, is the array at row `h + d`. -/
theorem sliceH_apply (y : FVec Ideal S2x518x512 .f32) (d : Nat) (hs : S2x518x512.Slices ![0, d, 0] S2x512x512)
    (n : Fin 2) (h w : Fin 512) (hd : h.val + d < 518) :
    extractStridedSlice S2x512x512 ![0, d, 0] y hs (ix3 n h w) = y (ix3 n ⟨h.val + d, hd⟩ w) := by
  refine extractStridedSlice_apply ![0, d, 0] y hs (ix3 n h w) (ix3 n ⟨h.val + d, hd⟩ w) ?_
  intro a
  match a with
  | ⟨0, _⟩ => show n.val = 0 + n.val; omega
  | ⟨1, _⟩ => show h.val + d = d + h.val; omega
  | ⟨2, _⟩ => show w.val = 0 + w.val; omega

/-! ### The two window maxima under a bound -/

/-- The 1×7 window maximum lies under a bound exactly when every column of the block within distance 3 does. -/
theorem poolW_le_iff (x : FVec Ideal S2x512x512 .f32) (n : Fin 2) (h w : Fin 512) (M : EReal) :
    (poolW x (ix3 n h w) : EReal) ≤ M
      ↔ ∀ w' : Fin 512, w.val ≤ w'.val + 3 → w'.val ≤ w.val + 3 → (x (ix3 n h w') : EReal) ≤ M := by
  have hw := w.isLt
  have e : (poolW x (ix3 n h w) : EReal)
      = max (max (max (max (max (max (padW x (ix3 n h ⟨w.val + 0, by omega⟩)) (padW x (ix3 n h ⟨w.val + 1, by omega⟩)))
          (padW x (ix3 n h ⟨w.val + 2, by omega⟩))) (padW x (ix3 n h ⟨w.val + 3, by omega⟩)))
          (padW x (ix3 n h ⟨w.val + 4, by omega⟩))) (padW x (ix3 n h ⟨w.val + 5, by omega⟩)))
          (padW x (ix3 n h ⟨w.val + 6, by omega⟩)) := by
    unfold poolW
    simp only [maximumf_apply]
    rw [sliceW_apply _ 0, sliceW_apply _ 1, sliceW_apply _ 2, sliceW_apply _ 3, sliceW_apply _ 4, sliceW_apply _ 5,
      sliceW_apply _ 6]
  rw [e]
  simp only [max_le_iff, padW_le_iff]
  constructor
  · rintro ⟨⟨⟨⟨⟨⟨H0, H1⟩, H2⟩, H3⟩, H4⟩, H5⟩, H6⟩ w' h1 h2
    have hc : w'.val + 3 = w.val + 0 ∨ w'.val + 3 = w.val + 1 ∨ w'.val + 3 = w.val + 2 ∨ w'.val + 3 = w.val + 3
        ∨ w'.val + 3 = w.val + 4 ∨ w'.val + 3 = w.val + 5 ∨ w'.val + 3 = w.val + 6 := by omega
    rcases hc with c | c | c | c | c | c | c
    · exact H0 w' c
    · exact H1 w' c
    · exact H2 w' c
    · exact H3 w' c
    · exact H4 w' c
    · exact H5 w' c
    · exact H6 w' c
  · intro H
    refine ⟨⟨⟨⟨⟨⟨?_, ?_⟩, ?_⟩, ?_⟩, ?_⟩, ?_⟩, ?_⟩ <;>
    · intro w' c
      have c' : w'.val + 3 = w.val + _ := c
      exact H w' (by omega) (by omega)

/-- The 7×1 window maximum lies under a bound exactly when every row of the block within distance 3 does. -/
theorem poolH_le_iff (x : FVec Ideal S2x512x512 .f32) (n : Fin 2) (h w : Fin 512) (M : EReal) :
    (poolH x (ix3 n h w) : EReal) ≤ M
      ↔ ∀ h' : Fin 512, h.val ≤ h'.val + 3 → h'.val ≤ h.val + 3 → (x (ix3 n h' w) : EReal) ≤ M := by
  have hh := h.isLt
  have e : (poolH x (ix3 n h w) : EReal)
      = max (max (max (max (max (max (padH x (ix3 n ⟨h.val + 0, by omega⟩ w)) (padH x (ix3 n ⟨h.val + 1, by omega⟩ w)))
          (padH x (ix3 n ⟨h.val + 2, by omega⟩ w))) (padH x (ix3 n ⟨h.val + 3, by omega⟩ w)))
          (padH x (ix3 n ⟨h.val + 4, by omega⟩ w))) (padH x (ix3 n ⟨h.val + 5, by omega⟩ w)))
          (padH x (ix3 n ⟨h.val + 6, by omega⟩ w)) := by
    unfold poolH
    simp only [maximumf_apply]
    rw [sliceH_apply _ 0, sliceH_apply _ 1, sliceH_apply _ 2, sliceH_apply _ 3, sliceH_apply _ 4, sliceH_apply _ 5,
      sliceH_apply _ 6]
  rw [e]
  simp only [max_le_iff, padH_le_iff]
  constructor
  · rintro ⟨⟨⟨⟨⟨⟨H0, H1⟩, H2⟩, H3⟩, H4⟩, H5⟩, H6⟩ h' h1 h2
    have hc : h'.val + 3 = h.val + 0 ∨ h'.val + 3 = h.val + 1 ∨ h'.val + 3 = h.val + 2 ∨ h'.val + 3 = h.val + 3
        ∨ h'.val + 3 = h.val + 4 ∨ h'.val + 3 = h.val + 5 ∨ h'.val + 3 = h.val + 6 := by omega
    rcases hc with c | c | c | c | c | c | c
    · exact H0 h' c
    · exact H1 h' c
    · exact H2 h' c
    · exact H3 h' c
    · exact H4 h' c
    · exact H5 h' c
    · exact H6 h' c
  · intro H
    refine ⟨⟨⟨⟨⟨⟨?_, ?_⟩, ?_⟩, ?_⟩, ?_⟩, ?_⟩, ?_⟩ <;>
    · intro h' c
      have c' : h'.val + 3 = h.val + _ := c
      exact H h' (by omega) (by omega)

/-- **The 7×7 window maximum under a bound**: exactly when every element of the block within distance 3 in both
    coordinates (the window clipped to the block, the padding being -∞) lies under it. -/
theorem pooled_le_iff (x : FVec Ideal S2x512x512 .f32) (n : Fin 2) (h w : Fin 512) (M : EReal) :
    (pooled x (ix3 n h w) : EReal) ≤ M
      ↔ ∀ h' w' : Fin 512, h.val ≤ h'.val + 3 → h'.val ≤ h.val + 3 → w.val ≤ w'.val + 3 → w'.val ≤ w.val + 3 →
          (x (ix3 n h' w') : EReal) ≤ M := by
  unfold pooled
  rw [poolH_le_iff]
  simp only [poolW_le_iff]
  exact ⟨fun H h' w' a b c d => H h' a b w' c d, fun H h' a b w' c d => H h' w' a b c d⟩

/-! ### The block maximum under a bound -/

/-- The maximum over the last axis: each row's maximum. -/
def rowMax (x : FVec Ideal S2x512x512 .f32) : FVec Ideal S2x512 .f32 :=
  multiReduction .maximumf [2] S2x512 x 0xFF800000#32 reduces_S2x512x512_S2x512 (.inl rfl) rfl

/-- The maximum over the middle axis of a one-column array: the maximum of its rows. -/
def colMax (y : FVec Ideal S2x512x1 .f32) : FVec Ideal S2x1 .f32 :=
  multiReduction .maximumf [1] S2x1 y 0xFF800000#32 reduces_S2x512x1_S2x1 (.inl rfl) rfl

/-- A row's maximum lies under a bound exactly when every element of the row does. -/
theorem rowMax_le_iff (x : FVec Ideal S2x512x512 .f32) (n : Fin 2) (h : Fin 512) (M : EReal) :
    (rowMax x (ix2 n h) : EReal) ≤ M ↔ ∀ w' : Fin 512, (x (ix3 n h w') : EReal) ≤ M := by
  unfold rowMax
  refine (congrArg (· ≤ M) (Ideal.multiReduction_maximumf_single (φ := .f32) x 0xFF800000#32
    reduces_S2x512x512_S2x512 (.inl rfl) rfl (ix2 n h))).to_iff.trans ?_
  rw [Finset.fold_max_le]
  have hl : ∀ k : Fin 512, reduces_S2x512x512_S2x512.lift (ix2 n h) k = ix3 n h k := fun k => by
    funext a
    match a with
    | ⟨0, _⟩ => rfl
    | ⟨1, _⟩ => rfl
    | ⟨2, _⟩ => rfl
  constructor
  · rintro ⟨_, H⟩ w'
    have := H w' (Finset.mem_univ _)
    change (x (reduces_S2x512x512_S2x512.lift (ix2 n h) w') : EReal) ≤ M at this
    rw [hl w'] at this
    exact this
  · intro H
    refine ⟨?_, fun k _ => ?_⟩
    · rw [show (FloatOps.ofBits (F := Ideal) .f32 0xFF800000#32 : EReal) = ⊥ from negInf_eq_bot]; exact bot_le
    · change (x (reduces_S2x512x512_S2x512.lift (ix2 n h) k) : EReal) ≤ M
      rw [hl k]; exact H k

/-- The maximum of a one-column array's rows lies under a bound exactly when every row does. -/
theorem colMax_le_iff (y : FVec Ideal S2x512x1 .f32) (n : Fin 2) (M : EReal) :
    (colMax y (ix2 n 0) : EReal) ≤ M ↔ ∀ h' : Fin 512, (y (ix3 n h' 0) : EReal) ≤ M := by
  unfold colMax
  refine (congrArg (· ≤ M) (Ideal.multiReduction_maximumf_single (φ := .f32) y 0xFF800000#32
    reduces_S2x512x1_S2x1 (.inl rfl) rfl (ix2 n 0))).to_iff.trans ?_
  rw [Finset.fold_max_le]
  have hl : ∀ k : Fin 512, reduces_S2x512x1_S2x1.lift (ix2 n 0) k = ix3 n k 0 := fun k => by
    funext a
    match a with
    | ⟨0, _⟩ => rfl
    | ⟨1, _⟩ => rfl
    | ⟨2, _⟩ => rfl
  constructor
  · rintro ⟨_, H⟩ h'
    have := H h' (Finset.mem_univ _)
    change (y (reduces_S2x512x1_S2x1.lift (ix2 n 0) h') : EReal) ≤ M at this
    rw [hl h'] at this
    exact this
  · intro H
    refine ⟨?_, fun k _ => ?_⟩
    · rw [show (FloatOps.ofBits (F := Ideal) .f32 0xFF800000#32 : EReal) = ⊥ from negInf_eq_bot]; exact bot_le
    · change (y (reduces_S2x512x1_S2x1.lift (ix2 n 0) k) : EReal) ≤ M
      rw [hl k]; exact H k

/-- **The block maximum under a bound**: exactly when every element of the image lies under it. -/
theorem blockMax_le_iff (x0 : Vec Ideal S2x512x512 .f32) (n : Fin 2) (M : EReal) :
    (k0_pay5 (F := Ideal) x0 (ix3 n 0 0) : EReal) ≤ M ↔ ∀ h' w' : Fin 512, (x0 (ix3 n h' w') : EReal) ≤ M := by
  have e1 : k0_pay5 (F := Ideal) x0 (ix3 n 0 0)
      = colMax (shapeCast S2x512x1 (rowMax (k0_pay4 x0)) shapeCasts_S2x512_S2x512x1) (ix2 n 0) := by
    show shapeCast S2x1x1 (colMax (shapeCast S2x512x1 (rowMax (k0_pay4 x0)) shapeCasts_S2x512_S2x512x1))
      shapeCasts_S2x1_S2x1x1 (ix3 n 0 0) = _
    refine shapeCast_apply _ _ (ix3 n 0 0) (ix2 n 0) ?_
    rw [Shape.rowMajor_val_two, Shape.rowMajor_val_three]
    show n.val * 1 + 0 = (n.val * 1 + 0) * 1 + 0
    omega
  have e2 : ∀ (x : FVec Ideal S2x512x512 .f32) (h' : Fin 512),
      shapeCast S2x512x1 (rowMax x) shapeCasts_S2x512_S2x512x1 (ix3 n h' 0) = rowMax x (ix2 n h') := fun x h' => by
    refine shapeCast_apply _ _ (ix3 n h' 0) (ix2 n h') ?_
    rw [Shape.rowMajor_val_two, Shape.rowMajor_val_three]
    show n.val * 512 + h'.val = (n.val * 512 + h'.val) * 1 + 0
    omega
  rw [e1, colMax_le_iff]
  simp only [e2, rowMax_le_iff, pay4_eq]

end Cert.NmsBlock

end
-- ==== Proof.LibWindowMax.lean ====
/-
  Windowed maxima on the extended reals, by their universal property.

  A maximum is known by the bounds above it.  A left fold of `max` lies under a bound exactly when its initial
  value and every folded value do (`foldl_max_le_iff`); so a windowed maximum (`Host.reduceWindow` with `max`, any
  rank, window, strides and padding) lies under a bound exactly when the initial value does and so does the operand
  at every window offset whose position falls inside the operand (`reduceWindow_max_le_iff`) — the padding positions
  hold the initial value.  With the float pattern of minus infinity as the initial value (`negInf_eq_bot`: it is the
  bottom element) the first condition is vacuous.  General in the shapes: nothing here names a program.
-/
import Idealize.ShloMosaic.PureOps.Ideal.Laws

namespace Cert.LibWindowMax

open Idealize.ShloMosaic

/-- The universal property of a running maximum: a left fold of `max` from `v` over the values `g n`, `n` in `l`,
    is below a bound exactly when `v` and every `g n` are. -/
theorem foldl_max_le_iff {ι : Type} (g : ι → EReal) (l : List ι) (v M : EReal) :
    List.foldl (fun r n => max r (g n)) v l ≤ M ↔ v ≤ M ∧ ∀ n ∈ l, g n ≤ M := by
  induction l generalizing v with
  | nil => simp
  | cons a l ih =>
    rw [List.foldl_cons, ih, max_le_iff]
    simp only [List.mem_cons, forall_eq_or_imp, and_assoc]

/-- The float pattern of minus infinity is the bottom of the extended reals. -/
theorem negInf_eq_bot : Ideal.ofBits .f32 0xFF800000#32 = (⊥ : EReal) := by
  simp [Ideal.ofBits, Ideal.ieee]

/-- A windowed maximum is below a bound exactly when the initial value and the value at every window offset are:
    an operand element where the offset position is inside the operand, the initial value where it is padding. -/
theorem reduceWindow_max_le_iff {s t u : Shape} (window strides lo hi : Fin s.rank → Nat) (x : s.Idx → EReal)
    (init : u.Idx → EReal) (hw : s.ReduceWindows window strides lo hi t) (hu : 0 < u.numel) (j : t.Idx) (M : EReal) :
    Host.reduceWindow (α := EReal) max window strides lo hi x init hw hu j ≤ M ↔
      init (Shape.Idx.first hu) ≤ M ∧ ∀ i : (⟨s.rank, window⟩ : Shape).Idx,
        ∀ hin : (∀ a, lo a ≤ (j (a.cast hw.1.symm)).val * strides a + (i a).val ∧
            (j (a.cast hw.1.symm)).val * strides a + (i a).val - lo a < s.size a),
          x (fun a => ⟨(j (a.cast hw.1.symm)).val * strides a + (i a).val - lo a, (hin a).2⟩) ≤ M := by
  unfold Host.reduceWindow
  refine (foldl_max_le_iff _ _ _ _).trans (and_congr_right fun hv => ?_)
  refine Iff.trans ?_ (Equiv.forall_congr_left (⟨s.rank, window⟩ : Shape).rowMajor).symm
  refine forall_congr' fun n => ?_
  constructor
  · intro H hin
    have := H (List.mem_finRange _)
    rwa [dif_pos hin] at this
  · intro H _
    split
    next hc => exact H hc
    next => exact hv

end Cert.LibWindowMax
-- ==== Proof.RefWindow.lean ====
/-
  The reference program's two maxima, by their universal property. At the ideal values a float is an extended
  real, the float maximum is `max`, and minus infinity is the bottom element. A maximum is then known by the bounds
  above it: the 7×7 windowed maximum over the last two axes of a [32, 4, 512, 512] array padded with minus infinity
  (`windowMax_le_iff`), and the maximum over the last two axes of each image (`imageMax_le_iff`), are below `M`
  exactly when the elements they range over are.
-/
import proofs.«107111_j37005438222881_2_alg».proof.Proof.Gen.ReferenceIdeal.Read
import Idealize.ShloMosaic.PureOps.Ideal.Laws
import proofs.«107111_j37005438222881_2_alg».proof.Proof.LibWindowMax
import Idealize.ShloMosaic.Lib.ValueIdx

namespace Cert.NmsRef

open Idealize.ShloMosaic Idealize.ShloMosaic.ValueIdx Cert.ReferenceIdeal Cert.ReferenceIdeal.Gen Cert.LibWindowMax

/-- The rank-zero initial value of both reductions is minus infinity, below every bound. -/
theorem init_le (M : EReal) : (Read.val_main_v0 (F := Ideal) (Shape.Idx.first h_S_) : EReal) ≤ M := by
  rw [Read.val_main_v0_apply, Read.val_main_cst_apply]
  show Ideal.ofBits .f32 0xFF800000#32 ≤ M
  rw [negInf_eq_bot]; exact bot_le

/-- The 7×7 "same" windowed maximum at (b, c, h, w) is below a bound exactly when every element of image (b, c)
    within three rows and three columns of (h, w) is: the offsets (e, d) of the window reach the rows h + e − 3 and
    the columns w + d − 3, and those outside the image hold minus infinity. -/
theorem windowMax_le_iff (X : S32x4x512x512.Idx → EReal) (b : Fin 32) (c : Fin 4) (h w : Fin 512) (M : EReal) :
    (Read.val_main_v1 (F := Ideal) X (ix4 b c h w) : EReal) ≤ M ↔
      ∀ h' w' : Fin 512, h.val ≤ h'.val + 3 → h'.val ≤ h.val + 3 → w.val ≤ w'.val + 3 → w'.val ≤ w.val + 3 →
        X (ix4 b c h' w') ≤ M := by
  unfold Read.val_main_v1
  refine (reduceWindow_max_le_iff (![1, 1, 7, 7] : Fin 4 → Nat) ![1, 1, 1, 1] ![0, 0, 3, 3] ![0, 0, 3, 3] X
    (Read.val_main_v0 (F := Ideal)) reduceWindows_S32x4x512x512_S32x4x512x512_w1s1p0_0_w1s1p0_0_w7s1p3_3_w7s1p3_3 h_S_ (ix4 b c h w) M).trans ?_
  constructor
  · rintro ⟨-, H⟩ h' w' h1 h2 h3 h4
    have key := H (ix4 (0 : Fin 1) (0 : Fin 1) (⟨h'.val + 3 - h.val, by omega⟩ : Fin 7) (⟨w'.val + 3 - w.val, by omega⟩ : Fin 7))
      (fun a => match a with
        | ⟨0, _⟩ => ⟨Nat.zero_le _, by show b.val * 1 + 0 - 0 < 32; omega⟩
        | ⟨1, _⟩ => ⟨Nat.zero_le _, by show c.val * 1 + 0 - 0 < 4; omega⟩
        | ⟨2, _⟩ => ⟨by show 3 ≤ h.val * 1 + (h'.val + 3 - h.val); omega,
                     by show h.val * 1 + (h'.val + 3 - h.val) - 3 < 512; omega⟩
        | ⟨3, _⟩ => ⟨by show 3 ≤ w.val * 1 + (w'.val + 3 - w.val); omega,
                     by show w.val * 1 + (w'.val + 3 - w.val) - 3 < 512; omega⟩)
    refine (le_of_eq (congrArg X (funext fun a => ?_))).trans key
    match a with
    | ⟨0, _⟩ => exact Fin.ext (by show b.val = b.val * 1 + 0 - 0; omega)
    | ⟨1, _⟩ => exact Fin.ext (by show c.val = c.val * 1 + 0 - 0; omega)
    | ⟨2, _⟩ => exact Fin.ext (by show h'.val = h.val * 1 + (h'.val + 3 - h.val) - 3; omega)
    | ⟨3, _⟩ => exact Fin.ext (by show w'.val = w.val * 1 + (w'.val + 3 - w.val) - 3; omega)
  · intro H
    refine ⟨init_le M, fun i hin => ?_⟩
    obtain ⟨e0, e1, e, d, rfl⟩ : ∃ e0 e1 e d, i = ix4 e0 e1 e d := ⟨_, _, _, _, eq_ix4 i⟩
    have h2 := hin ⟨2, by decide⟩
    have h3 := hin ⟨3, by decide⟩
    change 3 ≤ h.val * 1 + e.val ∧ h.val * 1 + e.val - 3 < 512 at h2
    change 3 ≤ w.val * 1 + d.val ∧ w.val * 1 + d.val - 3 < 512 at h3
    have he0 : e0.val = 0 := by omega
    have he1 : e1.val = 0 := by omega
    have key := H ⟨h.val + e.val - 3, by omega⟩ ⟨w.val + d.val - 3, by omega⟩
      (by show h.val ≤ h.val + e.val - 3 + 3; omega) (by show h.val + e.val - 3 ≤ h.val + 3; omega)
      (by show w.val ≤ w.val + d.val - 3 + 3; omega) (by show w.val + d.val - 3 ≤ w.val + 3; omega)
    refine (le_of_eq (congrArg X (funext fun a => ?_))).trans key
    match a with
    | ⟨0, _⟩ => exact Fin.ext (by show b.val * 1 + e0.val - 0 = b.val; omega)
    | ⟨1, _⟩ => exact Fin.ext (by show c.val * 1 + e1.val - 0 = c.val; omega)
    | ⟨2, _⟩ => exact Fin.ext (by show h.val * 1 + e.val - 3 = h.val + e.val - 3; omega)
    | ⟨3, _⟩ => exact Fin.ext (by show w.val * 1 + d.val - 3 = w.val + d.val - 3; omega)

/-- The per-image maximum at (b, c) is below a bound exactly when every element of image (b, c) is: the indices
    that drop to (b, c) once the last two coordinates are removed are those whose first two coordinates are b and c. -/
theorem imageMax_le_iff (X : S32x4x512x512.Idx → EReal) (b : Fin 32) (c : Fin 4) (M : EReal) :
    (Read.val_main_v2 (F := Ideal) X (ix2 b c) : EReal) ≤ M ↔ ∀ h' w' : Fin 512, X (ix4 b c h' w') ≤ M := by
  unfold Read.val_main_v2
  rw [Host.reduce_eq_fold]
  refine (Finset.fold_max_le (f := X) M).trans ?_
  constructor
  · rintro ⟨-, H⟩ h' w'
    refine H _ (Finset.mem_filter.2 ⟨Finset.mem_univ _, funext fun k => ?_⟩)
    match k with
    | ⟨0, _⟩ => exact Fin.ext (reducesTo_S32x4x512x512_S32x4_d2_3.drop_apply_val_of_eq _ ⟨0, by decide⟩ ⟨0, by decide⟩)
    | ⟨1, _⟩ => exact Fin.ext (reducesTo_S32x4x512x512_S32x4_d2_3.drop_apply_val_of_eq _ ⟨1, by decide⟩ ⟨1, by decide⟩)
  · intro H
    refine ⟨?_, fun i hi => ?_⟩
    · show Ideal.ofBits .f32 0xFF800000#32 ≤ M
      rw [negInf_eq_bot]; exact bot_le
    · have hd := (Finset.mem_filter.1 hi).2
      obtain ⟨b', c', h', w', rfl⟩ : ∃ b' c' h' w', i = ix4 b' c' h' w' := ⟨_, _, _, _, eq_ix4 i⟩
      have hb : b' = b := Fin.ext ((reducesTo_S32x4x512x512_S32x4_d2_3.drop_apply_val_of_eq _ ⟨0, by decide⟩ ⟨0, by decide⟩).symm.trans
        (congrArg (fun q : S32x4.Idx => (q ⟨0, by decide⟩).val) hd))
      have hc : c' = c := Fin.ext ((reducesTo_S32x4x512x512_S32x4_d2_3.drop_apply_val_of_eq _ ⟨1, by decide⟩ ⟨1, by decide⟩).symm.trans
        (congrArg (fun q : S32x4.Idx => (q ⟨1, by decide⟩).val) hd))
      subst hb hc
      exact H h' w'

end Cert.NmsRef
-- ==== Proof.BlockValue.lean ====
/-
  One block of two images against the three flat results of the peak detector.

  The block `x0` holds images `2 q` and `2 q + 1` of the flat stack, and flat image `m` is image `(m / 4, m % 4)`
  of the four-axis stack `X` (`IsBlock`). So image `n` of the block is one image `(b, c)` of `X`, element by element,
  and then: the block's 7 × 7 window maximum with -∞ padding is the reference's windowed maximum, and the block's
  maximum is the reference's image maximum — in each pair both sides lie under exactly the same bounds, hence are
  equal (`pooled_eq_window`, `blockMax_eq_image`). The rest is read element by element: the mask is the same
  conjunction of three comparisons (`mask_eq`), the value the same select on it (`value_eq`), the ratio the same
  quotient by the same maximum (`ratio_eq`). `mask_block`, `value_block`, `ratio_block` restate them at a block
  index `y` under a flat index `i`.
-/
import proofs.«107111_j37005438222881_2_alg».proof.Proof.Spec
import proofs.«107111_j37005438222881_2_alg».proof.Proof.Gen.KernelIdeal.Skeleton
import proofs.«107111_j37005438222881_2_alg».proof.Proof.Gen.ReferenceIdeal.Read
import proofs.«107111_j37005438222881_2_alg».proof.Proof.BlockPool
import proofs.«107111_j37005438222881_2_alg».proof.Proof.RefWindow
import Idealize.ShloMosaic.Lib.ValueIdx
import Idealize.ShloMosaic.Lib.Pipeline.Value

noncomputable section

namespace Cert.NmsBlock

open Idealize.ShloMosaic Idealize.ShloMosaic.ValueIdx
open Cert.KernelIdeal Cert.KernelIdeal.Gen Cert.Nms

/-- The block `x0` holds images `2 q` and `2 q + 1` of the flat stack of `X`. -/
def IsBlock (x0 : Vec Ideal S2x512x512 .f32) (X : Stack) (q : Nat) : Prop :=
  ∀ (y : S2x512x512.Idx) (i : S128x512x512.Idx), (i 0).val = 2 * q + (y 0).val → (i 1).val = (y 1).val →
    (i 2).val = (y 2).val → x0 y = X (unflat i)

/-! ### Image `n` of the block is image `(b, c)` of the stack -/

/-- The 7 × 7 window maximum of the block's image `n` is the reference's windowed maximum of image `(b, c)`: both
    lie under exactly the same bounds. -/
theorem pooled_eq_window (x0 : Vec Ideal S2x512x512 .f32) (X : Stack) (n : Fin 2) (b : Fin 32) (c : Fin 4)
    (hX : ∀ h' w' : Fin 512, (x0 (ix3 n h' w') : EReal) = X (ix4 b c h' w')) (h w : Fin 512) :
    (pooled x0 (ix3 n h w) : EReal) = Cert.ReferenceIdeal.Read.val_main_v1 (F := Ideal) X (ix4 b c h w) :=
  eq_of_forall_ge_iff fun M => by
    rw [pooled_le_iff, Cert.NmsRef.windowMax_le_iff]
    simp only [hX]

/-- The block maximum of image `n` is the reference's maximum of image `(b, c)`. -/
theorem blockMax_eq_image (x0 : Vec Ideal S2x512x512 .f32) (X : Stack) (n : Fin 2) (b : Fin 32) (c : Fin 4)
    (hX : ∀ h' w' : Fin 512, (x0 (ix3 n h' w') : EReal) = X (ix4 b c h' w')) :
    (k0_pay5 (F := Ideal) x0 (ix3 n 0 0) : EReal) = Cert.ReferenceIdeal.Read.val_main_v2 (F := Ideal) X (ix2 b c) :=
  eq_of_forall_ge_iff fun M => by
    rw [blockMax_le_iff, Cert.NmsRef.imageMax_le_iff]
    simp only [hX]

/-- The mask bit of the block at `(n, h, w)` is the reference's at `(b, c, h, w)`. -/
theorem mask_eq (x0 : Vec Ideal S2x512x512 .f32) (X : Stack) (n : Fin 2) (b : Fin 32) (c : Fin 4)
    (hX : ∀ h' w' : Fin 512, (x0 (ix3 n h' w') : EReal) = X (ix4 b c h' w')) (h w : Fin 512) :
    k0_pay6 (F := Ideal) x0 (ix3 n h w) = Cert.ReferenceIdeal.Read.val_main_v12 (F := Ideal) X (ix4 b c h w) := by
  have eL : k0_pay6 (F := Ideal) x0 (ix3 n h w)
      = IntOp.andi (IntOp.andi (FloatOps.cmpf (F := Ideal) (φ := .f32) .oeq (pooled x0 (ix3 n h w)) (x0 (ix3 n h w)))
            (FloatOps.cmpf (F := Ideal) (φ := .f32) .ogt (x0 (ix3 n h w)) (FloatOps.ofBits .f32 0x3E4CCCCD#32)))
          (FloatOps.cmpf (F := Ideal) (φ := .f32) .ogt (x0 (ix3 n h w))
            (FloatOps.mulf (FloatOps.ofBits .f32 0x3D4CCCCD#32) (k0_pay5 (F := Ideal) x0 (ix3 n 0 0)))) := by
    rw [pay6_eq, pay4_eq]
    show IntOp.andi (IntOp.andi _ _) (FloatOps.cmpf (F := Ideal) (φ := .f32) .ogt _
      (broadcastTo S2x512x512 (mulf (broadcast S2x1x1 (Scalar.ofBits .f32 0x3D4CCCCD#32)) (k0_pay5 (F := Ideal) x0))
        broadcasts_S2x1x1_S2x512x512 (ix3 n h w))) = _
    rw [broadcastTo_apply _ broadcasts_S2x1x1_S2x512x512 (ix3 n h w) (ix3 n 0 0) (fun a => match a with
      | ⟨0, _⟩ => by show n.val = if (2 : Nat) = 1 then 0 else n.val; rw [if_neg (by decide)]
      | ⟨1, _⟩ => by show 0 = if (1 : Nat) = 1 then 0 else h.val; rw [if_pos rfl]
      | ⟨2, _⟩ => by show 0 = if (1 : Nat) = 1 then 0 else w.val; rw [if_pos rfl])]
    rfl
  have e3 : Cert.ReferenceIdeal.Read.idx_main_v3 (Cert.ReferenceIdeal.Read.idx_main_v10 (ix4 b c h w)) = ix2 b c := by
    funext a
    match a with
    | ⟨0, _⟩ => rfl
    | ⟨1, _⟩ => rfl
  rw [eL, Cert.ReferenceIdeal.Read.val_main_v12_apply, Cert.ReferenceIdeal.Read.val_main_v7_apply,
    Cert.ReferenceIdeal.Read.val_main_v4_apply, Cert.ReferenceIdeal.Read.val_main_v6_apply,
    Cert.ReferenceIdeal.Read.val_main_v11_apply, Cert.ReferenceIdeal.Read.val_main_v10_apply,
    Cert.ReferenceIdeal.Read.val_main_v9_apply, Cert.ReferenceIdeal.Read.val_main_v8_apply,
    Cert.ReferenceIdeal.Read.val_main_cst_2_apply, Cert.ReferenceIdeal.Read.val_main_v3_apply,
    Cert.ReferenceIdeal.Read.val_main_v5_apply, Cert.ReferenceIdeal.Read.val_main_cst_1_apply, e3,
    pooled_eq_window x0 X n b c hX h w, blockMax_eq_image x0 X n b c hX, hX h w]

/-- The block's value payload at `(n, h, w)` is the reference's at `(b, c, h, w)`. -/
theorem value_eq (x0 : Vec Ideal S2x512x512 .f32) (X : Stack) (n : Fin 2) (b : Fin 32) (c : Fin 4)
    (hX : ∀ h' w' : Fin 512, (x0 (ix3 n h' w') : EReal) = X (ix4 b c h' w')) (h w : Fin 512) :
    k0_pay1 (F := Ideal) (k0_pay4 x0) (k0_pay6 x0) (Scalar.ofBits .f32 0x00000000#32) (ix3 n h w)
      = Cert.ReferenceIdeal.Read.val_main_v13 (F := Ideal) X (ix4 b c h w) := by
  rw [Cert.ReferenceIdeal.Read.val_main_v13_apply, Cert.ReferenceIdeal.Read.val_main_call0_v0_apply,
    Cert.ReferenceIdeal.Read.val_main_cst_3_apply, ← mask_eq x0 X n b c hX h w, ← hX h w, pay4_eq]
  rfl

/-- The block's ratio payload at `(n, h, w)` is the reference's at `(b, c, h, w)`. -/
theorem ratio_eq (x0 : Vec Ideal S2x512x512 .f32) (X : Stack) (n : Fin 2) (b : Fin 32) (c : Fin 4)
    (hX : ∀ h' w' : Fin 512, (x0 (ix3 n h' w') : EReal) = X (ix4 b c h' w')) (h w : Fin 512) :
    k0_pay2 (F := Ideal) (k0_pay4 x0) (k0_pay5 x0) (k0_pay6 x0) (Scalar.ofBits .f32 0x00000000#32) (ix3 n h w)
      = Cert.ReferenceIdeal.Read.val_main_v15 (F := Ideal) X (ix4 b c h w) := by
  have e3 : Cert.ReferenceIdeal.Read.idx_main_v3 (Cert.ReferenceIdeal.Read.idx_main_v14 (ix4 b c h w)) = ix2 b c := by
    funext a
    match a with
    | ⟨0, _⟩ => rfl
    | ⟨1, _⟩ => rfl
  rw [Cert.ReferenceIdeal.Read.val_main_v15_apply, Cert.ReferenceIdeal.Read.val_main_v14_apply,
    Cert.ReferenceIdeal.Read.val_main_v3_apply, e3, ← value_eq x0 X n b c hX h w, ← blockMax_eq_image x0 X n b c hX]
  show FloatOps.divf (F := Ideal) (φ := .f32) _ (broadcastTo S2x512x512 (k0_pay5 (F := Ideal) x0) broadcasts_S2x1x1_S2x512x512 (ix3 n h w)) = _
  rw [broadcastTo_apply _ broadcasts_S2x1x1_S2x512x512 (ix3 n h w) (ix3 n 0 0) (fun a => match a with
    | ⟨0, _⟩ => by show n.val = if (2 : Nat) = 1 then 0 else n.val; rw [if_neg (by decide)]
    | ⟨1, _⟩ => by show 0 = if (1 : Nat) = 1 then 0 else h.val; rw [if_pos rfl]
    | ⟨2, _⟩ => by show 0 = if (1 : Nat) = 1 then 0 else w.val; rw [if_pos rfl])]
  rfl

/-! ### The three payloads of a block against the three flat results -/

/-- A block index `y` under the flat index `i`: the coordinates of both, and the block's image `y 0` as image
    `(i 0 / 4, i 0 % 4)` of the stack. -/
theorem block_coords (x0 : Vec Ideal S2x512x512 .f32) (X : Stack) (q : Nat) (hb : IsBlock x0 X q)
    (y : S2x512x512.Idx) (i : S128x512x512.Idx) (h0 : (i 0).val = 2 * q + (y 0).val) (h1 : (i 1).val = (y 1).val)
    (h2 : (i 2).val = (y 2).val) :
    ∃ (n : Fin 2) (b : Fin 32) (c : Fin 4) (h w : Fin 512), y = ix3 n h w ∧ unflat i = ix4 b c h w ∧
      ∀ h' w' : Fin 512, (x0 (ix3 n h' w') : EReal) = X (ix4 b c h' w') := by
  refine ⟨y 0, ⟨(i 0).val / 4, by have h : (i 0).val < 128 := (i 0).isLt; omega⟩,
    ⟨(i 0).val % 4, Nat.mod_lt _ (by decide)⟩, y 1, y 2, eq_ix3 y, ?_, fun h' w' => ?_⟩
  · funext a
    match a with
    | ⟨0, _⟩ => rfl
    | ⟨1, _⟩ => rfl
    | ⟨2, _⟩ => exact Fin.ext h1
    | ⟨3, _⟩ => exact Fin.ext h2
  · exact hb (ix3 (y 0) h' w') (ix3 (i 0) h' w') h0 rfl rfl

theorem mask_block (x0 : Vec Ideal S2x512x512 .f32) (X : Stack) (q : Nat) (hb : IsBlock x0 X q)
    (y : S2x512x512.Idx) (i : S128x512x512.Idx) (h0 : (i 0).val = 2 * q + (y 0).val) (h1 : (i 1).val = (y 1).val)
    (h2 : (i 2).val = (y 2).val) :
    k0_pay3 (k0_pay6 (F := Ideal) x0) y = maskWords X i := by
  obtain ⟨n, b, c, h, w, rfl, hi, hX⟩ := block_coords x0 X q hb y i h0 h1 h2
  show (k0_pay6 (F := Ideal) x0 (ix3 n h w)).setWidth 32
    = (Cert.ReferenceIdeal.Read.val_main_v12 (F := Ideal) X (unflat i)).setWidth 32
  rw [hi, mask_eq x0 X n b c hX h w]

theorem value_block (x0 : Vec Ideal S2x512x512 .f32) (X : Stack) (q : Nat) (hb : IsBlock x0 X q)
    (y : S2x512x512.Idx) (i : S128x512x512.Idx) (h0 : (i 0).val = 2 * q + (y 0).val) (h1 : (i 1).val = (y 1).val)
    (h2 : (i 2).val = (y 2).val) :
    k0_pay1 (F := Ideal) (k0_pay4 x0) (k0_pay6 x0) (Scalar.ofBits .f32 0x00000000#32) y = peakValue X i := by
  obtain ⟨n, b, c, h, w, rfl, hi, hX⟩ := block_coords x0 X q hb y i h0 h1 h2
  show _ = Cert.ReferenceIdeal.Read.val_main_v13 (F := Ideal) X (unflat i)
  rw [hi, value_eq x0 X n b c hX h w]

theorem ratio_block (x0 : Vec Ideal S2x512x512 .f32) (X : Stack) (q : Nat) (hb : IsBlock x0 X q)
    (y : S2x512x512.Idx) (i : S128x512x512.Idx) (h0 : (i 0).val = 2 * q + (y 0).val) (h1 : (i 1).val = (y 1).val)
    (h2 : (i 2).val = (y 2).val) :
    k0_pay2 (F := Ideal) (k0_pay4 x0) (k0_pay5 x0) (k0_pay6 x0) (Scalar.ofBits .f32 0x00000000#32) y = peakRatio X i := by
  obtain ⟨n, b, c, h, w, rfl, hi, hX⟩ := block_coords x0 X q hb y i h0 h1 h2
  show _ = Cert.ReferenceIdeal.Read.val_main_v15 (F := Ideal) X (unflat i)
  rw [hi, ratio_eq x0 X n b c hX h w]

end Cert.NmsBlock

end
-- ==== Proof.Unflatten.lean ====
/-
  The host operations after the region, read through the flattening.

  The four-axis stack and the flat stack of 128 images hold the same elements in the same row-major order, so
  reshaping a flat array that reads a four-axis one through `unflat` gives the four-axis array back; and a one-bit
  word widened to 32 bits is nonzero exactly when the bit is set, so comparing the widened mask with zero gives the
  mask back.
-/
import proofs.«107111_j37005438222881_2_alg».proof.Proof.Spec
import Idealize.ShloMosaic.Lib.ValueIdx
import Idealize.ShloMosaic.Lib.ValueLayout
import Idealize.ShloMosaic.Lib.Pipeline.Value

noncomputable section

namespace Cert.Nms

open Idealize.ShloMosaic Idealize.ShloMosaic.ValueIdx

/-- A flat array that reads `f` through `unflat`, reshaped to four axes, is `f`: element (b, c, h, w) has the same
    row-major position as element (4 b + c, h, w) of the flat stack. -/
theorem reshape_unflat {α : Type} (f : Cert.ReferenceIdeal.S32x4x512x512.Idx → α)
    (hs : Cert.KernelIdeal.S128x512x512.ShapeCasts Cert.KernelIdeal.S32x4x512x512) :
    shapeCast Cert.KernelIdeal.S32x4x512x512 (fun i : Cert.KernelIdeal.S128x512x512.Idx => f (unflat i)) hs = f := by
  funext j
  have h0 : (j 0).val < 32 := (j 0).isLt
  have h1 : (j 1).val < 4 := (j 1).isLt
  refine (shapeCast_apply _ hs j
    (ix3 (⟨4 * (j 0).val + (j 1).val, by omega⟩ : Fin 128) (j 2 : Fin 512) (j 3 : Fin 512)) ?_).trans ?_
  · rw [Shape.rowMajor_val_four, Shape.rowMajor_val_three]
    show ((4 * (j 0).val + (j 1).val) * 512 + (j 2).val) * 512 + (j 3).val
      = (((j 0).val * 4 + (j 1).val) * 512 + (j 2).val) * 512 + (j 3).val
    omega
  · refine congrArg f (funext fun a => Fin.ext ?_)
    match a with
    | ⟨0, _⟩ => show (4 * (j 0).val + (j 1).val) / 4 = (j 0).val; omega
    | ⟨1, _⟩ => show (4 * (j 0).val + (j 1).val) % 4 = (j 1).val; omega
    | ⟨2, _⟩ => rfl
    | ⟨3, _⟩ => rfl

/-- A bit widened to a 32-bit word differs from zero exactly when it is set. -/
theorem widened_ne_zero (b : BitVec 1) : IntOp.cmpi .ne (b.setWidth 32) 0#32 = b := by
  by_cases h : b = 1#1
  · subst h; decide
  · have h0 := eq_zero_of_ne_one h
    subst h0; decide

/-- The widened mask compared with a zero splat, then reshaped, is the reference's mask. -/
theorem mask_tail (X : Stack) (hs : Cert.KernelIdeal.S128x512x512.ShapeCasts Cert.KernelIdeal.S32x4x512x512)
    (hb : Cert.KernelIdeal.S_.BroadcastsInDim Cert.KernelIdeal.S128x512x512 (![] : Fin 0 → Fin 3)) :
    shapeCast Cert.KernelIdeal.S32x4x512x512
      (id (cmpi .ne (maskWords X) (broadcastInDim Cert.KernelIdeal.S128x512x512 ![] hb (constantI Cert.KernelIdeal.S_ 32 0#32)))) hs
      = Cert.ReferenceIdeal.Read.val_main_v12 (F := Ideal) X := by
  have e : (id (cmpi .ne (maskWords X) (broadcastInDim Cert.KernelIdeal.S128x512x512 ![] hb (constantI Cert.KernelIdeal.S_ 32 0#32))))
      = fun i : Cert.KernelIdeal.S128x512x512.Idx => Cert.ReferenceIdeal.Read.val_main_v12 (F := Ideal) X (unflat i) := by
    funext i
    show IntOp.cmpi .ne ((Cert.ReferenceIdeal.Read.val_main_v12 (F := Ideal) X (unflat i)).setWidth 32)
      (broadcastInDim Cert.KernelIdeal.S128x512x512 ![] hb (constantI Cert.KernelIdeal.S_ 32 0#32) i) = _
    rw [broadcastInDim_apply _ hb _ i ix0 (fun a => a.elim0), constantI_apply]
    exact widened_ne_zero _
  rw [e]
  exact reshape_unflat _ hs

end Cert.Nms

end
-- ==== Proof.KernelValue.lean ====
/-
  The program on the flat stack, read as values.

  The region runs over 64 grid points; at point `t` each of its four windows (the input and the three outputs) is
  the block of images `2 t` and `2 t + 1` of a flat stack of 128 images, whole in the other two axes.  The input
  array is the argument reshaped, so the input block at `t` holds those two images of the stack (`iblk_isBlock`);
  the body's three stores then hold the mask words, the peak values and the ratios of those images (the block
  lemmas), which is what the point writes back (`flushed1_eq` … `flushed3_eq`); image `n` lies in the block of point
  `n / 2`, so the blocks cover the arrays (`cover1` … `cover3`) and the arrays after the region are the three results
  on the flat stack (`final1` … `final3`).  The host operations after the region compare the words with zero and
  reshape to four axes, which gives the reference's three stages (`tail_v5` … `tail_v7`), and `run` states the
  program's run with its results at those stages.
-/
import proofs.«107111_j37005438222881_2_alg».proof.Proof.BlockValue
import proofs.«107111_j37005438222881_2_alg».proof.Proof.Unflatten
import proofs.«107111_j37005438222881_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.NmsKernel

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Nms Cert.NmsBlock

variable (m : (ℓ : Loc nD τ sig) → Buf (Elt Ideal) ℓ) (ρ : Dev nD → PrngReg)

/-- The stack of images as the program finds it in its argument. -/
abbrev X (c : Dev nD) : Stack := m ((c : Thread nD τ).loc main_arg0)

/-- The flat stack the region works on is the argument reshaped. -/
theorem V_main_v0 (c : Dev nD) :
    (V m c main_v0 : S128x512x512.Idx → EReal) = shapeCast S128x512x512 (X m c) shapeCasts_S32x4x512x512_S128x512x512 := by
  show StableHlo.after hostOps0 (fun b => m (c, b)) (Proc.devRef .tc main_v0) = _
  after_results
  rfl

/-- Read at an index: flat image `n` is image `(n / 4, n % 4)`. -/
theorem V_main_v0_apply (c : Dev nD) (i : S128x512x512.Idx) :
    (V m c main_v0 : S128x512x512.Idx → EReal) i = X m c (unflat i) := by
  rw [V_main_v0]
  refine shapeCast_apply _ _ i (unflat i) ?_
  rw [Shape.rowMajor_val_four, Shape.rowMajor_val_three]
  show (((i 0).val / 4 * 4 + (i 0).val % 4) * 512 + (i 1).val) * 512 + (i 2).val
    = ((i 0).val * 512 + (i 1).val) * 512 + (i 2).val
  omega

/-- At point `t` every window's block is images `2 t` and `2 t + 1`, whole. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The input block at point `t` holds images `2 t` and `2 t + 1` of the flat stack. -/
theorem iblk_isBlock (c : Dev nD) (t : Fin cfg0.N) : IsBlock (iblk m c 0 t) (X m c) t.val := by
  intro y i h0 h1 h2
  obtain ⟨e0, e1, e2, -⟩ := idx_facts t
  have e : (iblk m c 0 t : S2x512x512.Idx → EReal) y
      = (V m c main_v0 : S128x512x512.Idx → EReal) (((cfg0.win 0).blk t).view.emb y) := rfl
  rw [e, V_main_v0_apply]
  refine congrArg (X m c) (congrArg unflat ?_)
  funext a; apply Fin.ext
  match a with
  | ⟨0, _⟩ => show win0_0.index t (0 : Fin 3) * 2 + 1 * (y 0).val = (i 0).val; omega
  | ⟨1, _⟩ => show win0_0.index t (1 : Fin 3) * 512 + 1 * (y 1).val = (i 1).val; omega
  | ⟨2, _⟩ => show win0_0.index t (2 : Fin 3) * 512 + 1 * (y 2).val = (i 2).val; omega

theorem hz : (![0, 0, 0] : Fin 3 → Nat) = fun _ => 0 := funext fun a => by fin_cases a <;> rfl

/-- What point `t` writes back to the mask's array is block `t` of the mask words. -/
theorem flushed1_eq (c : Dev nD) (t : Fin cfg0.N) :
    (dats m 0 c).flushed 1 t = ((cfg0.win 1).blk t).view.read (Elt Ideal) (maskWords (X m c)) := by
  show (cfg0.win 1).cut (grid0.coords t) ((dats m 0 c).after 1 t) = _
  rw [after0_1]
  unfold out0_1
  rw [View.canon_unit_zero hz]
  simp only [View.ld_unit_zero (S := S2x512x512) hz]
  funext y
  show k0_pay3 (k0_pay6 (iblk m c 0 t)) y = maskWords (X m c) (((cfg0.win 1).blk t).view.emb y)
  obtain ⟨-, -, -, e0, e1, e2, -⟩ := idx_facts t
  refine mask_block (iblk m c 0 t) (X m c) t.val (iblk_isBlock m c t) y _ ?_ ?_ ?_
  · show win0_1.index t (0 : Fin 3) * 2 + 1 * (y 0).val = 2 * t.val + (y 0).val; omega
  · show win0_1.index t (1 : Fin 3) * 512 + 1 * (y 1).val = (y 1).val; omega
  · show win0_1.index t (2 : Fin 3) * 512 + 1 * (y 2).val = (y 2).val; omega

/-- One store through the whole block leaves its payload (stated over a block variable). -/
theorem out0_3_eq (x0 : Vec Ideal S2x512x512 .f32) :
    out0_3 x0 = k0_pay2 (k0_pay4 x0) (k0_pay5 x0) (k0_pay6 x0) (Scalar.ofBits .f32 0x00000000#32) := by
  unfold out0_3
  rw [View.canon_unit_zero hz]
  simp only [View.ld_unit_zero (S := S2x512x512) hz]

/-- What point `t` writes back to the peak values' array is block `t` of them. -/
theorem flushed2_eq (c : Dev nD) (t : Fin cfg0.N) :
    (dats m 0 c).flushed 2 t = ((cfg0.win 2).blk t).view.read (Elt Ideal) (peakValue (X m c)) := by
  show (cfg0.win 2).cut (grid0.coords t) ((dats m 0 c).after 2 t) = _
  rw [after0_2]
  unfold out0_2
  rw [View.canon_unit_zero hz]
  simp only [View.ld_unit_zero (S := S2x512x512) hz]
  funext y
  show k0_pay1 (k0_pay4 (iblk m c 0 t)) (k0_pay6 (iblk m c 0 t)) (Scalar.ofBits .f32 0x00000000#32) y
    = peakValue (X m c) (((cfg0.win 2).blk t).view.emb y)
  obtain ⟨-, -, -, -, -, -, e0, e1, e2, -⟩ := idx_facts t
  refine value_block (iblk m c 0 t) (X m c) t.val (iblk_isBlock m c t) y _ ?_ ?_ ?_
  · show win0_2.index t (0 : Fin 3) * 2 + 1 * (y 0).val = 2 * t.val + (y 0).val; omega
  · show win0_2.index t (1 : Fin 3) * 512 + 1 * (y 1).val = (y 1).val; omega
  · show win0_2.index t (2 : Fin 3) * 512 + 1 * (y 2).val = (y 2).val; omega

/-- What point `t` writes back to the ratios' array is block `t` of them. -/
theorem flushed3_eq (c : Dev nD) (t : Fin cfg0.N) :
    (dats m 0 c).flushed 3 t = ((cfg0.win 3).blk t).view.read (Elt Ideal) (peakRatio (X m c)) := by
  show (cfg0.win 3).cut (grid0.coords t) ((dats m 0 c).after 3 t) = _
  rw [after0_3, out0_3_eq]
  funext y
  rw [View.read_apply, cast_eq]
  obtain ⟨-, -, -, -, -, -, -, -, -, e0, e1, e2⟩ := idx_facts t
  refine ratio_block (iblk m c 0 t) (X m c) t.val (iblk_isBlock m c t) ((cfg0.win 3).xinj (grid0.coords t) y)
    (((cfg0.win 3).blk t).view.emb y) ?_ ?_ ?_
  · show win0_3.index t (0 : Fin 3) * 2 + 1 * (y 0).val = 2 * t.val + (y 0).val; omega
  · show win0_3.index t (1 : Fin 3) * 512 + 1 * (y 1).val = (y 1).val; omega
  · show win0_3.index t (2 : Fin 3) * 512 + 1 * (y 2).val = (y 2).val; omega
/-- An index of the flat stack is in point `t`'s block iff each coordinate is in the block's range on its axis. -/
theorem mem_blk1 (t : Fin cfg0.N) (i : S128x512x512.Idx) :
    i ∈ ((cfg0.win 1).blk t).view.set ↔ ∀ a : Fin 3, win0_1.index t a * S2x512x512.size a ≤ (i a).val
      ∧ (i a).val < win0_1.index t a * S2x512x512.size a + S2x512x512.size a := by
  show i ∈ ((View.whole main_v1_0).slice (win0_1.rect t)).set ↔ _
  rw [View.set_slice_whole, Rect.mem_set_unit]
  exact Iff.rfl
theorem mem_blk2 (t : Fin cfg0.N) (i : S128x512x512.Idx) :
    i ∈ ((cfg0.win 2).blk t).view.set ↔ ∀ a : Fin 3, win0_2.index t a * S2x512x512.size a ≤ (i a).val
      ∧ (i a).val < win0_2.index t a * S2x512x512.size a + S2x512x512.size a := by
  show i ∈ ((View.whole main_v1_1).slice (win0_2.rect t)).set ↔ _
  rw [View.set_slice_whole, Rect.mem_set_unit]
  exact Iff.rfl
theorem mem_blk3 (t : Fin cfg0.N) (i : S128x512x512.Idx) :
    i ∈ ((cfg0.win 3).blk t).view.set ↔ ∀ a : Fin 3, win0_3.index t a * S2x512x512.size a ≤ (i a).val
      ∧ (i a).val < win0_3.index t a * S2x512x512.size a + S2x512x512.size a := by
  show i ∈ ((View.whole main_v1_2).slice (win0_3.rect t)).set ↔ _
  rw [View.set_slice_whole, Rect.mem_set_unit]
  exact Iff.rfl

/-- The point whose block holds flat image `n` is `n / 2`. -/
def pointOf (i : S128x512x512.Idx) : Fin cfg0.N :=
  ⟨(i 0).val / 2, by have h : (i 0).val < 128 := (i 0).isLt; have hN : cfg0.N = 64 := N_0; omega⟩

theorem pointOf_val (i : S128x512x512.Idx) : (pointOf i).val = (i 0).val / 2 := rfl

/-- The blocks written back cover the mask's array. -/
theorem cover1 (i : S128x512x512.Idx) :
    ∃ t : Fin cfg0.N, (cfg0.win 1).flush t = true ∧ i ∈ ((cfg0.win 1).blk t).view.set := by
  refine ⟨pointOf i, flush0_1 _, ?_⟩
  rw [mem_blk1]
  obtain ⟨-, -, -, e0, e1, e2, -⟩ := idx_facts (pointOf i)
  have hp := pointOf_val i
  have h0 : (i 0).val < 128 := (i 0).isLt
  have h1 : (i 1).val < 512 := (i 1).isLt
  have h2 : (i 2).val < 512 := (i 2).isLt
  intro a
  match a with
  | ⟨0, _⟩ => show win0_1.index (pointOf i) (0 : Fin 3) * 2 ≤ (i 0).val ∧ (i 0).val < win0_1.index (pointOf i) (0 : Fin 3) * 2 + 2; omega
  | ⟨1, _⟩ => show win0_1.index (pointOf i) (1 : Fin 3) * 512 ≤ (i 1).val ∧ (i 1).val < win0_1.index (pointOf i) (1 : Fin 3) * 512 + 512; omega
  | ⟨2, _⟩ => show win0_1.index (pointOf i) (2 : Fin 3) * 512 ≤ (i 2).val ∧ (i 2).val < win0_1.index (pointOf i) (2 : Fin 3) * 512 + 512; omega
theorem cover2 (i : S128x512x512.Idx) :
    ∃ t : Fin cfg0.N, (cfg0.win 2).flush t = true ∧ i ∈ ((cfg0.win 2).blk t).view.set := by
  refine ⟨pointOf i, flush0_2 _, ?_⟩
  rw [mem_blk2]
  obtain ⟨-, -, -, -, -, -, e0, e1, e2, -⟩ := idx_facts (pointOf i)
  have hp := pointOf_val i
  have h0 : (i 0).val < 128 := (i 0).isLt
  have h1 : (i 1).val < 512 := (i 1).isLt
  have h2 : (i 2).val < 512 := (i 2).isLt
  intro a
  match a with
  | ⟨0, _⟩ => show win0_2.index (pointOf i) (0 : Fin 3) * 2 ≤ (i 0).val ∧ (i 0).val < win0_2.index (pointOf i) (0 : Fin 3) * 2 + 2; omega
  | ⟨1, _⟩ => show win0_2.index (pointOf i) (1 : Fin 3) * 512 ≤ (i 1).val ∧ (i 1).val < win0_2.index (pointOf i) (1 : Fin 3) * 512 + 512; omega
  | ⟨2, _⟩ => show win0_2.index (pointOf i) (2 : Fin 3) * 512 ≤ (i 2).val ∧ (i 2).val < win0_2.index (pointOf i) (2 : Fin 3) * 512 + 512; omega
theorem cover3 (i : S128x512x512.Idx) :
    ∃ t : Fin cfg0.N, (cfg0.win 3).flush t = true ∧ i ∈ ((cfg0.win 3).blk t).view.set := by
  refine ⟨pointOf i, flush0_3 _, ?_⟩
  rw [mem_blk3]
  obtain ⟨-, -, -, -, -, -, -, -, -, e0, e1, e2⟩ := idx_facts (pointOf i)
  have hp := pointOf_val i
  have h0 : (i 0).val < 128 := (i 0).isLt
  have h1 : (i 1).val < 512 := (i 1).isLt
  have h2 : (i 2).val < 512 := (i 2).isLt
  intro a
  match a with
  | ⟨0, _⟩ => show win0_3.index (pointOf i) (0 : Fin 3) * 2 ≤ (i 0).val ∧ (i 0).val < win0_3.index (pointOf i) (0 : Fin 3) * 2 + 2; omega
  | ⟨1, _⟩ => show win0_3.index (pointOf i) (1 : Fin 3) * 512 ≤ (i 1).val ∧ (i 1).val < win0_3.index (pointOf i) (1 : Fin 3) * 512 + 512; omega
  | ⟨2, _⟩ => show win0_3.index (pointOf i) (2 : Fin 3) * 512 ≤ (i 2).val ∧ (i 2).val < win0_3.index (pointOf i) (2 : Fin 3) * 512 + 512; omega

/-- The three arrays after the region. -/
theorem final1 (c : Dev nD) : (dats m 0 c).arrAt 1 cfg0.N = maskWords (X m c) :=
  (dats m 0 c).arrAt_eq_of_cover 1 (maskWords (X m c)) (fun t _ => flushed1_eq m c t) cover1
theorem final2 (c : Dev nD) : (dats m 0 c).arrAt 2 cfg0.N = peakValue (X m c) :=
  (dats m 0 c).arrAt_eq_of_cover 2 (peakValue (X m c)) (fun t _ => flushed2_eq m c t) cover2
theorem final3 (c : Dev nD) : (dats m 0 c).arrAt 3 cfg0.N = peakRatio (X m c) :=
  (dats m 0 c).arrAt_eq_of_cover 3 (peakRatio (X m c)) (fun t _ => flushed3_eq m c t) cover3

/-! ### The host operations after the region -/

/-- The three arrays as the operations after the region find them. -/
theorem arr1 (c : Dev nD) :
    Pipeline.withArrays (cfgs 0).spec c (V0 m c) (fun w => (dats m 0 c).arrAt w (cfgs 0).N) (Proc.devRef .tc main_v1_0)
      = maskWords (X m c) :=
  (Pipeline.withArrays_arr spec0 launch0.win.arr_inj c _ _ 1).trans (final1 m c)
theorem arr2 (c : Dev nD) :
    Pipeline.withArrays (cfgs 0).spec c (V0 m c) (fun w => (dats m 0 c).arrAt w (cfgs 0).N) (Proc.devRef .tc main_v1_1)
      = peakValue (X m c) :=
  (Pipeline.withArrays_arr spec0 launch0.win.arr_inj c _ _ 2).trans (final2 m c)
theorem arr3 (c : Dev nD) :
    Pipeline.withArrays (cfgs 0).spec c (V0 m c) (fun w => (dats m 0 c).arrAt w (cfgs 0).N) (Proc.devRef .tc main_v1_2)
      = peakRatio (X m c) :=
  (Pipeline.withArrays_arr spec0 launch0.win.arr_inj c _ _ 3).trans (final3 m c)

/-- The mask result: the words compared with zero and reshaped to four axes are the reference's mask. -/
theorem tail_v5 (c : Dev nD) :
    Pipeline.afterTail₀ cfgs (dats m) 0 (V0 m) [hostOps1] c main_v5
      = Cert.ReferenceIdeal.Read.val_main_v12 (F := Ideal) (X m c) := by
  unfold Pipeline.afterTail₀
  show StableHlo.after hostOps1 _ (Proc.devRef .tc main_v5) = _
  after_results
  rw [arr1]
  exact mask_tail (X m c) _ _

/-- The peak values reshaped to four axes are the reference's. -/
theorem tail_v6 (c : Dev nD) :
    Pipeline.afterTail₀ cfgs (dats m) 0 (V0 m) [hostOps1] c main_v6
      = Cert.ReferenceIdeal.Read.val_main_v13 (F := Ideal) (X m c) := by
  unfold Pipeline.afterTail₀
  show StableHlo.after hostOps1 _ (Proc.devRef .tc main_v6) = _
  after_results
  rw [arr2]
  exact reshape_unflat (Cert.ReferenceIdeal.Read.val_main_v13 (F := Ideal) (X m c)) _

/-- The ratios reshaped to four axes are the reference's. -/
theorem tail_v7 (c : Dev nD) :
    Pipeline.afterTail₀ cfgs (dats m) 0 (V0 m) [hostOps1] c main_v7
      = Cert.ReferenceIdeal.Read.val_main_v15 (F := Ideal) (X m c) := by
  unfold Pipeline.afterTail₀
  show StableHlo.after hostOps1 _ (Proc.devRef .tc main_v7) = _
  after_results
  rw [arr3]
  exact reshape_unflat (Cert.ReferenceIdeal.Read.val_main_v15 (F := Ideal) (X m c)) _

/-! ### The run, read -/

/-- Every weakly fair execution terminates with the three results at the reference's three stages of the argument,
    the argument unchanged. -/
theorem run : θ_run defs (onTc (τ := τ) (main (F := Ideal))) ⟨m, fun _ => 0, ρ⟩ fun r => ∀ c : Dev nD,
      r.2.mem ((c : Thread nD τ).loc main_v5) = Cert.ReferenceIdeal.Read.val_main_v12 (F := Ideal) (X m c)
      ∧ r.2.mem ((c : Thread nD τ).loc main_v6) = Cert.ReferenceIdeal.Read.val_main_v13 (F := Ideal) (X m c)
      ∧ r.2.mem ((c : Thread nD τ).loc main_v7) = Cert.ReferenceIdeal.Read.val_main_v15 (F := Ideal) (X m c)
      ∧ r.2.mem ((c : Thread nD τ).loc main_arg0) = m ((c : Thread nD τ).loc main_arg0) :=
  (θ_run defs _ _).mono (fun r h c =>
    ⟨((h c).2 main_v5 (Pipeline.mem_restRefs_of main_v5 (by decide) (by decide))).trans (tail_v5 m c),
     ((h c).2 main_v6 (Pipeline.mem_restRefs_of main_v6 (by decide) (by decide))).trans (tail_v6 m c),
     ((h c).2 main_v7 (Pipeline.mem_restRefs_of main_v7 (by decide) (by decide))).trans (tail_v7 m c),
     ((h c).2 main_arg0 (Pipeline.mem_restRefs_of main_arg0 (by decide) (by decide))).trans (W_main_arg0 m (dats m) c)⟩)
    (run_main m ρ)

end Cert.NmsKernel
end
-- ==== Proof.lean ====
/-
  Peak detection on a stack of belief maps: a 32 × 4 stack of 512 × 512 images of extended reals.  For each image
  the results are the mask of the peaks — the elements that equal the maximum of the 7 × 7 window around them
  (clipped to the image), exceed 0.2, and exceed 0.05 times the image's maximum —, the value at each peak (zero
  elsewhere), and that value divided by the image's maximum.

  One program computes them on the stack flattened to 128 images, two images per grid point: the window maximum
  separably (seven column shifts of the image padded with -∞, then seven row shifts), the image's maximum along the
  columns then along the rows, the mask written as 32-bit words that the host compares with zero and reshapes.  The
  other computes them on the four-axis stack: one 7 × 7 windowed maximum with -∞ padding, one maximum over the last
  two axes.  On the extended reals the two agree element by element: a maximum is determined by the bounds above it
  (`a ≤ M` for every `M`), and both window maxima lie under `M` exactly when every element of the image within
  three rows and three columns does, both image maxima exactly when every element of the image does; the
  comparisons, the selection and the quotient are then the same operations of the same values.  No algebraic law
  that needs finiteness is used, so the precondition is never opened.

  The modules: `Spec` (the three results on the flat stack, read through the flattening), `RefWindow` (the
  reference's two maxima by their universal property), `BlockPool` (the same for one block of two images),
  `BlockValue` (the body's three payloads on a block are the three results there), `Unflatten` (the host
  operations after the region), `KernelValue` (the blocks written back cover the arrays; the run, read).
-/
import proofs.«107111_j37005438222881_2_alg».proof.Defs
import proofs.«107111_j37005438222881_2_alg».proof.Proof.Gen.Kernel
import proofs.«107111_j37005438222881_2_alg».proof.Proof.Gen.Kernel.Skeleton
import proofs.«107111_j37005438222881_2_alg».proof.Proof.Gen.Kernel.Launch
import proofs.«107111_j37005438222881_2_alg».proof.Proof.Gen.Kernel.Points
import proofs.«107111_j37005438222881_2_alg».proof.Proof.Gen.Kernel.Frame
import proofs.«107111_j37005438222881_2_alg».proof.Proof.Gen.KernelIdeal
import proofs.«107111_j37005438222881_2_alg».proof.Proof.Gen.KernelIdeal.Skeleton
import proofs.«107111_j37005438222881_2_alg».proof.Proof.Gen.KernelIdeal.Launch
import proofs.«107111_j37005438222881_2_alg».proof.Proof.Gen.KernelIdeal.Points
import proofs.«107111_j37005438222881_2_alg».proof.Proof.Gen.KernelIdeal.Frame
import proofs.«107111_j37005438222881_2_alg».proof.Proof.Gen.ReferenceIdeal
import proofs.«107111_j37005438222881_2_alg».proof.Proof.Gen.ReferenceIdeal.Run
import proofs.«107111_j37005438222881_2_alg».proof.Proof.Gen.ReferenceIdeal.Read
import proofs.«107111_j37005438222881_2_alg».proof.Proof.Gen.Pre_finite_inputs
import proofs.«107111_j37005438222881_2_alg».proof.Proof.KernelValue
import Idealize.ShloMosaic.Adequacy
import Idealize.ShloMosaic.Init

noncomputable section

namespace Cert.Proof

open Idealize.ShloMosaic Idealize.SL.Sem

/-- The word-level program runs and leaves its argument unchanged. -/
theorem frame_k : Cert.frame_Kernel := fun m ρ _ => Cert.Kernel.Gen.frame m ρ

/-- So does the program read at the extended reals. -/
theorem frame_ki : Cert.frame_KernelIdeal := fun m ρ _ => Cert.KernelIdeal.Gen.frame m ρ

/-- The reference's run, its results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the mask, the peak values and the ratios of the argument stack: the first by the block
    computation carried to the arrays and through the host's reshapes, the second by its run read stage by stage. -/
theorem algebraic : Cert.algebraic_KernelIdeal_ReferenceIdeal := by
  intro m ρ m' ρ' _ hagree
  refine ⟨fun c => Cert.ReferenceIdeal.Read.val_main_v12 (F := Ideal) (Cert.NmsKernel.X m c),
    fun c => Cert.ReferenceIdeal.Read.val_main_v13 (F := Ideal) (Cert.NmsKernel.X m c),
    fun c => Cert.ReferenceIdeal.Read.val_main_v15 (F := Ideal) (Cert.NmsKernel.X m c),
    Cert.NmsKernel.run m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, hagree c]; rfl
  · rw [(h c).2.1, hagree c]; rfl
  · rw [(h c).2.2.1, hagree c]; rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
